-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128 : Shape := ⟨2, ![256, 128]⟩
abbrev S512x256x128 : Shape := ⟨3, ![512, 256, 128]⟩
abbrev S128x512 : Shape := ⟨2, ![128, 512]⟩
abbrev S1x512 : Shape := ⟨2, ![1, 512]⟩
abbrev S512x128 : Shape := ⟨2, ![512, 128]⟩
abbrev S1x128 : Shape := ⟨2, ![1, 128]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S512x256x128 : S_.BroadcastsInDim S512x256x128 (![] : Fin 0 → Fin S512x256x128.rank)
  reducesTo_S512x256x128_S_d0_1_2 : S512x256x128.ReducesTo [0, 1, 2] S_
  bcast_S_S128x512 : S_.BroadcastsInDim S128x512 (![] : Fin 0 → Fin S128x512.rank)
  reducesTo_S128x512_S_d0_1 : S128x512.ReducesTo [0, 1] S_
  bcast_S_S1x512 : S_.BroadcastsInDim S1x512 (![] : Fin 0 → Fin S1x512.rank)
  reducesTo_S1x512_S_d0_1 : S1x512.ReducesTo [0, 1] S_
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_
  reducesTo_S_S_d : S_.ReducesTo [] S_

variable [Facts]

def fn_part2 {F : FTy → Type} [FloatOps F] (main_arg7 : FVec F S_ .f32) (main_v33 : IVec S_ 1) : IVec S_ 1 :=
  let main_v34 : FVec F S_ .f32 := Host.absf main_arg7
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  main_v37

def fn_part1 {F : FTy → Type} [FloatOps F] (main_arg4 : FVec F S1x512 .f32) (main_arg5 : FVec F S512x128 .f32) (main_arg6 : FVec F S1x128 .f32) (main_arg7 : FVec F S_ .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_v33

def fn {F : FTy → Type} [FloatOps F] (main_arg0 : FVec F S256x128 .f32) (main_arg1 : FVec F S512x256x128 .f32) (main_arg2 : FVec F S128x512 .f32) (main_arg3 : FVec F S128x512 .f32) (main_arg4 : FVec F S1x512 .f32) (main_arg5 : FVec F S512x128 .f32) (main_arg6 : FVec F S1x128 .f32) (main_arg7 : FVec F S_ .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S512x256x128 .f32 := Host.absf main_arg1
  let main_cst_0 : FVec F S_ .f32 := constant S_ .f32 0x7F800000#32
  let main_v5 : FVec F S512x256x128 .f32 := broadcastInDim S512x256x128 ![] bcast_S_S512x256x128 main_cst_0
  let main_v6 : IVec S512x256x128 1 := cmpf .olt main_v4 main_v5
  let main_c_1 : IVec S_ 1 := constantI S_ 1 1#1
  let main_v7 : IVec S_ 1 := (fun x v => Host.reduce IntOp.andi x v reducesTo_S512x256x128_S_d0_1_2 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_arg7 main_v13 main_v16
-- ==== Kernel.lean ====
abbrev S256x128 : Shape := ⟨2, ![256, 128]⟩
abbrev S512x256x128 : Shape := ⟨3, ![512, 256, 128]⟩
abbrev S128x512 : Shape := ⟨2, ![128, 512]⟩
abbrev S1x512 : Shape := ⟨2, ![1, 512]⟩
abbrev S512x128 : Shape := ⟨2, ![512, 128]⟩
abbrev S1x128 : Shape := ⟨2, ![1, 128]⟩
abbrev S_ : Shape := ⟨0, ![]⟩
abbrev S0 : Shape := ⟨1, ![0]⟩
abbrev S128x128 : Shape := ⟨2, ![128, 128]⟩
abbrev S8x128x128 : Shape := ⟨3, ![8, 128, 128]⟩
abbrev S1024x128 : Shape := ⟨2, ![1024, 128]⟩
abbrev S1024x512 : Shape := ⟨2, ![1024, 512]⟩
abbrev S1x128x128 : Shape := ⟨3, ![1, 128, 128]⟩

abbrev nBuf : Space → Nat
  | .hbm => 21
  | .vmem => 12
  | .smem => 0
  | _ => 0

abbrev bufTy : (tb : Table) → Fin (tcTables nBuf tb) → BufTy
  | .hbm, ⟨0, _⟩ => ⟨S256x128, .f32⟩
  | .hbm, ⟨1, _⟩ => ⟨S512x256x128, .f32⟩
  | .hbm, ⟨2, _⟩ => ⟨S128x512, .f32⟩
  | .hbm, ⟨3, _⟩ => ⟨S128x512, .f32⟩
  | .hbm, ⟨4, _⟩ => ⟨S1x512, .f32⟩
  | .hbm, ⟨5, _⟩ => ⟨S512x128, .f32⟩
  | .hbm, ⟨6, _⟩ => ⟨S1x128, .f32⟩
  | .hbm, ⟨7, _⟩ => ⟨S_, .f32⟩
  | .hbm, ⟨8, _⟩ => ⟨S0, .i32⟩
  | .hbm, ⟨9, _⟩ => ⟨S0, .i32⟩
  | .hbm, ⟨10, _⟩ => ⟨S512x128, .f32⟩
  | .hbm, ⟨11, _⟩ => ⟨S512x128, .f32⟩
  | .hbm, ⟨12, _⟩ => ⟨S1x128, .f32⟩
  | .hbm, ⟨13, _⟩ => ⟨S1x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S_, .f32⟩
  | .hbm, ⟨18, _⟩ => ⟨S512x256x128, .f32⟩
  | .hbm, ⟨19, _⟩ => ⟨S512x256x128, .f32⟩
  | .hbm, ⟨20, _⟩ => ⟨S512x256x128, .f32⟩
  | .local _ .vmem, ⟨0, _⟩ => ⟨S128x128, .f32⟩
  | .local _ .vmem, ⟨1, _⟩ => ⟨S128x128, .f32⟩
  | .local _ .vmem, ⟨2, _⟩ => ⟨S8x128x128, .f32⟩
  | .local _ .vmem, ⟨3, _⟩ => ⟨S8x128x128, .f32⟩
  | .local _ .vmem, ⟨4, _⟩ => ⟨S128x512, .f32⟩
  | .local _ .vmem, ⟨5, _⟩ => ⟨S128x512, .f32⟩
  | .local _ .vmem, ⟨6, _⟩ => ⟨S1x512, .f32⟩
  | .local _ .vmem, ⟨7, _⟩ => ⟨S512x128, .f32⟩
  | .local _ .vmem, ⟨8, _⟩ => ⟨S1x128, .f32⟩
  | .local _ .vmem, ⟨9, _⟩ => ⟨S8x128x128, .f32⟩
  | .local _ .vmem, ⟨10, _⟩ => ⟨S8x128x128, .f32⟩
  | .local _ .vmem, ⟨11, _⟩ => ⟨S128x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  hz_S0 : S0.numel = 0
  bcast_S_S512x128 : S_.BroadcastsInDim S512x128 (![] : Fin 0 → Fin S512x128.rank)
  bcast_S_S1x128 : S_.BroadcastsInDim S1x128 (![] : Fin 0 → Fin S1x128.rank)
  bcast_S_S256x128 : S_.BroadcastsInDim S256x128 (![] : Fin 0 → Fin S256x128.rank)
  bcast_S_S512x256x128 : S_.BroadcastsInDim S512x256x128 (![] : Fin 0 → Fin S512x256x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8x128x128_S8x128x128_0_0_0 : ∀ a, (![0, 0, 0] : Fin 3 → Nat) a + S8x128x128.size a ≤ S8x128x128.size a
  h_S8x128x128 : 0 < S8x128x128.numel
  shapeCasts_S8x128x128_S8x128x128 : S8x128x128.ShapeCasts S8x128x128
  shapeCasts_S8x128x128_S1024x128 : S8x128x128.ShapeCasts S1024x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S1024x512_o0_0_S128x512 : S1024x512.Slices ![0, 0] S128x512
  broadcasts_S1x128_S128x128 : S1x128.Broadcasts S128x128
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  shapeCasts_S128x128_S1x128x128 : S128x128.ShapeCasts S1x128x128
  slices_S1024x512_o128_0_S128x512 : S1024x512.Slices ![128, 0] S128x512
  inb_S8x128x128_S1x128x128_1_0_0 : ∀ a, (![1, 0, 0] : Fin 3 → Nat) a + S1x128x128.size a ≤ S8x128x128.size a
  slices_S1024x512_o256_0_S128x512 : S1024x512.Slices ![256, 0] S128x512
  inb_S8x128x128_S1x128x128_2_0_0 : ∀ a, (![2, 0, 0] : Fin 3 → Nat) a + S1x128x128.size a ≤ S8x128x128.size a
  slices_S1024x512_o384_0_S128x512 : S1024x512.Slices ![384, 0] S128x512
  inb_S8x128x128_S1x128x128_3_0_0 : ∀ a, (![3, 0, 0] : Fin 3 → Nat) a + S1x128x128.size a ≤ S8x128x128.size a
  slices_S1024x512_o512_0_S128x512 : S1024x512.Slices ![512, 0] S128x512
  inb_S8x128x128_S1x128x128_4_0_0 : ∀ a, (![4, 0, 0] : Fin 3 → Nat) a + S1x128x128.size a ≤ S8x128x128.size a
  slices_S1024x512_o640_0_S128x512 : S1024x512.Slices ![640, 0] S128x512
  inb_S8x128x128_S1x128x128_5_0_0 : ∀ a, (![5, 0, 0] : Fin 3 → Nat) a + S1x128x128.size a ≤ S8x128x128.size a
  slices_S1024x512_o768_0_S128x512 : S1024x512.Slices ![768, 0] S128x512
  inb_S8x128x128_S1x128x128_6_0_0 : ∀ a, (![6, 0, 0] : Fin 3 → Nat) a + S1x128x128.size a ≤ S8x128x128.size a
  slices_S1024x512_o896_0_S128x512 : S1024x512.Slices ![896, 0] S128x512
  inb_S8x128x128_S1x128x128_7_0_0 : ∀ a, (![7, 0, 0] : Fin 3 → Nat) a + S1x128x128.size a ≤ S8x128x128.size a
  scatter_S256x128_S0_S256x128_01_n_n_0_wf : ScatterDims.WF S256x128 S0 S256x128 [0, 1] [] [] 0
  scatter_S512x256x128_S0_S512x256x128_012_n_n_0_wf : ScatterDims.WF S512x256x128 S0 S512x256x128 [0, 1, 2] [] [] 0
  dot_S1024x128_S128x512_S1024x512_1_0_0_1_n_n_wf : DotDims.WF S1024x128 S128x512 S1024x512 [1] [0] [0] [1] [] []
  dot_S128x128_S128x512_S128x512_1_0_0_1_n_n_wf : DotDims.WF S128x128 S128x512 S128x512 [1] [0] [0] [1] [] []
  dot_S128x512_S512x128_S128x128_1_0_0_1_n_n_wf : DotDims.WF S128x512 S512x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S256x128.size a
  hwx0_0 : ∀ i : grid0.Coords, EltTy.bits .f32 = 32 ∨ (Rect.block (s := S256x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S512x256x128.size a
  hwx0_1 : ∀ i : grid0.Coords, EltTy.bits .f32 = 32 ∨ (Rect.block (s := S512x256x128) S8x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128x128.size a ≤ S512x256x128.size a
  hwx0_7 : ∀ i : grid0.Coords, EltTy.bits .f32 = 32 ∨ (Rect.block (s := S512x256x128) S8x128x128.size (cc0_transform_7 i) (hinb0_7 i)).WholeWords (EltTy.packing .f32)

variable [Facts₀]

def scatter_S256x128_S0_S256x128_01_n_n_0 : ScatterDims S256x128 S0 S256x128 where
  updateWindowDims := [0, 1]
  insertedWindowDims := []
  scatterDimsToOperandDims := []
  indexVectorDim := 0
  wf := scatter_S256x128_S0_S256x128_01_n_n_0_wf
def scatter_S512x256x128_S0_S512x256x128_012_n_n_0 : ScatterDims S512x256x128 S0 S512x256x128 where
  updateWindowDims := [0, 1, 2]
  insertedWindowDims := []
  scatterDimsToOperandDims := []
  indexVectorDim := 0
  wf := scatter_S512x256x128_S0_S512x256x128_012_n_n_0_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.ofSpec (Memref.whole main_v5) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S8x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x128 : Shape := ⟨2, ![256, 128]⟩
abbrev S512x256x128 : Shape := ⟨3, ![512, 256, 128]⟩
abbrev S128x512 : Shape := ⟨2, ![128, 512]⟩
abbrev S1x512 : Shape := ⟨2, ![1, 512]⟩
abbrev S512x128 : Shape := ⟨2, ![512, 128]⟩
abbrev S1x128 : Shape := ⟨2, ![1, 128]⟩
abbrev S_ : Shape := ⟨0, ![]⟩
abbrev S0 : Shape := ⟨1, ![0]⟩
abbrev S8x128 : Shape := ⟨2, ![8, 128]⟩
abbrev S8x8x128 : Shape := ⟨3, ![8, 8, 128]⟩
abbrev S64x128 : Shape := ⟨2, ![64, 128]⟩
abbrev S64x512 : Shape := ⟨2, ![64, 512]⟩
abbrev S8x512 : Shape := ⟨2, ![8, 512]⟩
abbrev S1x8x128 : Shape := ⟨3, ![1, 8, 128]⟩

abbrev nBuf : Space → Nat
  | .hbm => 21
  | .vmem => 12
  | .smem => 0
  | _ => 0

abbrev bufTy : (tb : Table) → Fin (tcTables nBuf tb) → BufTy
  | .hbm, ⟨0, _⟩ => ⟨S256x128, .f32⟩
  | .hbm, ⟨1, _⟩ => ⟨S512x256x128, .f32⟩
  | .hbm, ⟨2, _⟩ => ⟨S128x512, .f32⟩
  | .hbm, ⟨3, _⟩ => ⟨S128x512, .f32⟩
  | .hbm, ⟨4, _⟩ => ⟨S1x512, .f32⟩
  | .hbm, ⟨5, _⟩ => ⟨S512x128, .f32⟩
  | .hbm, ⟨6, _⟩ => ⟨S1x128, .f32⟩
  | .hbm, ⟨7, _⟩ => ⟨S_, .f32⟩
  | .hbm, ⟨8, _⟩ => ⟨S0, .i32⟩
  | .hbm, ⟨9, _⟩ => ⟨S0, .i32⟩
  | .hbm, ⟨10, _⟩ => ⟨S512x128, .f32⟩
  | .hbm, ⟨11, _⟩ => ⟨S512x128, .f32⟩
  | .hbm, ⟨12, _⟩ => ⟨S1x128, .f32⟩
  | .hbm, ⟨13, _⟩ => ⟨S1x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S_, .f32⟩
  | .hbm, ⟨18, _⟩ => ⟨S512x256x128, .f32⟩
  | .hbm, ⟨19, _⟩ => ⟨S512x256x128, .f32⟩
  | .hbm, ⟨20, _⟩ => ⟨S512x256x128, .f32⟩
  | .local _ .vmem, ⟨0, _⟩ => ⟨S8x128, .f32⟩
  | .local _ .vmem, ⟨1, _⟩ => ⟨S8x128, .f32⟩
  | .local _ .vmem, ⟨2, _⟩ => ⟨S8x8x128, .f32⟩
  | .local _ .vmem, ⟨3, _⟩ => ⟨S8x8x128, .f32⟩
  | .local _ .vmem, ⟨4, _⟩ => ⟨S128x512, .f32⟩
  | .local _ .vmem, ⟨5, _⟩ => ⟨S128x512, .f32⟩
  | .local _ .vmem, ⟨6, _⟩ => ⟨S1x512, .f32⟩
  | .local _ .vmem, ⟨7, _⟩ => ⟨S512x128, .f32⟩
  | .local _ .vmem, ⟨8, _⟩ => ⟨S1x128, .f32⟩
  | .local _ .vmem, ⟨9, _⟩ => ⟨S8x8x128, .f32⟩
  | .local _ .vmem, ⟨10, _⟩ => ⟨S8x8x128, .f32⟩
  | .local _ .vmem, ⟨11, _⟩ => ⟨S8x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![32, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  hz_S0 : S0.numel = 0
  bcast_S_S512x128 : S_.BroadcastsInDim S512x128 (![] : Fin 0 → Fin S512x128.rank)
  bcast_S_S1x128 : S_.BroadcastsInDim S1x128 (![] : Fin 0 → Fin S1x128.rank)
  bcast_S_S256x128 : S_.BroadcastsInDim S256x128 (![] : Fin 0 → Fin S256x128.rank)
  bcast_S_S512x256x128 : S_.BroadcastsInDim S512x256x128 (![] : Fin 0 → Fin S512x256x128.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x8x128_S8x8x128_0_0_0 : ∀ a, (![0, 0, 0] : Fin 3 → Nat) a + S8x8x128.size a ≤ S8x8x128.size a
  h_S8x8x128 : 0 < S8x8x128.numel
  shapeCasts_S8x8x128_S8x8x128 : S8x8x128.ShapeCasts S8x8x128
  shapeCasts_S8x8x128_S64x128 : S8x8x128.ShapeCasts S64x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  broadcasts_S1x512_S64x512 : S1x512.Broadcasts S64x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8x128 : S1x128.Broadcasts S8x128
  slices_S64x512_o0_0_S8x512 : S64x512.Slices ![0, 0] S8x512
  slices_S64x512_o8_0_S8x512 : S64x512.Slices ![8, 0] S8x512
  slices_S64x512_o16_0_S8x512 : S64x512.Slices ![16, 0] S8x512
  slices_S64x512_o24_0_S8x512 : S64x512.Slices ![24, 0] S8x512
  slices_S64x512_o32_0_S8x512 : S64x512.Slices ![32, 0] S8x512
  slices_S64x512_o40_0_S8x512 : S64x512.Slices ![40, 0] S8x512
  slices_S64x512_o48_0_S8x512 : S64x512.Slices ![48, 0] S8x512
  slices_S64x512_o56_0_S8x512 : S64x512.Slices ![56, 0] S8x512
  shapeCasts_S8x128_S1x8x128 : S8x128.ShapeCasts S1x8x128
  concatenates_S1x8x128_S1x8x128_S1x8x128_S1x8x128_S1x8x128_S1x8x128_S1x8x128_S1x8x128_S8x8x128_d0 : Shape.Concatenates [S1x8x128, S1x8x128, S1x8x128, S1x8x128, S1x8x128, S1x8x128, S1x8x128, S1x8x128] S8x8x128 0
  scatter_S256x128_S0_S256x128_01_n_n_0_wf : ScatterDims.WF S256x128 S0 S256x128 [0, 1] [] [] 0
  scatter_S512x256x128_S0_S512x256x128_012_n_n_0_wf : ScatterDims.WF S512x256x128 S0 S512x256x128 [0, 1, 2] [] [] 0
  dot_S64x128_S128x512_S64x512_1_0_0_1_n_n_wf : DotDims.WF S64x128 S128x512 S64x512 [1] [0] [0] [1] [] []
  dot_S8x128_S128x512_S8x512_1_0_0_1_n_n_wf : DotDims.WF S8x128 S128x512 S8x512 [1] [0] [0] [1] [] []
  dot_S8x512_S512x128_S8x128_1_0_0_1_n_n_wf : DotDims.WF S8x512 S512x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S256x128.size a
  hwx0_0 : ∀ i : grid0.Coords, EltTy.bits .f32 = 32 ∨ (Rect.block (s := S256x128) S8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x128.size a ≤ S512x256x128.size a
  hwx0_1 : ∀ i : grid0.Coords, EltTy.bits .f32 = 32 ∨ (Rect.block (s := S512x256x128) S8x8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x8x128.size a ≤ S512x256x128.size a
  hwx0_7 : ∀ i : grid0.Coords, EltTy.bits .f32 = 32 ∨ (Rect.block (s := S512x256x128) S8x8x128.size (cc0_transform_7 i) (hinb0_7 i)).WholeWords (EltTy.packing .f32)

variable [Facts₀]

def scatter_S256x128_S0_S256x128_01_n_n_0 : ScatterDims S256x128 S0 S256x128 where
  updateWindowDims := [0, 1]
  insertedWindowDims := []
  scatterDimsToOperandDims := []
  indexVectorDim := 0
  wf := scatter_S256x128_S0_S256x128_01_n_n_0_wf
def scatter_S512x256x128_S0_S512x256x128_012_n_n_0 : ScatterDims S512x256x128 S0 S512x256x128 where
  updateWindowDims := [0, 1, 2]
  insertedWindowDims := []
  scatterDimsToOperandDims := []
  indexVectorDim := 0
  wf := scatter_S512x256x128_S0_S512x256x128_012_n_n_0_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf
def dot_S8x128_S128x512_S8x512_1_0_0_1_n_n : DotDims S8x128 S128x512 S8x512 where
  lhsContracting := [1]
  rhsContracting := [0]
  lhsNonContracting := [0]
  rhsNonContracting := [1]
  lhsBatch := []
  rhsBatch := []
  wf := dot_S8x128_S128x512_S8x512_1_0_0_1_n_n_wf
def dot_S8x512_S512x128_S8x128_1_0_0_1_n_n : DotDims S8x512 S512x128 S8x128 where
  lhsContracting := [1]
  rhsContracting := [0]
  lhsNonContracting := [0]
  rhsNonContracting := [1]
  lhsBatch := []
  rhsBatch := []
  wf := dot_S8x512_S512x128_S8x128_1_0_0_1_n_n_wf

abbrev win0_0 : Pipeline.Window sig grid0 :=
  Pipeline.Window.ofSpec (Memref.whole main_v5) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S8x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.Spec.lean ====
/-
  The Euler rollout of a neural ODE, one batch row at a time.

  One step takes a state row `x` (128 entries) and a projected control row `up` (512 entries) to
  `x + tanh (x · W1x + up) · W2 + b2`, every product a finite sum over the extended reals; the projected control of a
  control row `ur` is `ur · W1u + b1`. A batch row never meets another batch row, so the whole rollout is, for each
  batch row `p`, the sequence of states started at row `p` of `x0` and driven by the controls `u[n, p, :]`; the result
  array holds at `(n, p, k)` entry `k` of the state after `n + 1` steps. How the batch is cut into tiles, and how the
  steps are grouped into chunks, does not enter.
-/
import Idealize.ShloMosaic.PureOps.Ideal
import Idealize.ShloMosaic.Lib.ValueIdx

noncomputable section

open scoped BigOperators

namespace Cert.Rollout

open Idealize.ShloMosaic Idealize.ShloMosaic.ValueIdx

/-- A matrix, and a rank-three array, of extended reals over literal extents. -/
abbrev Mat (a b : Nat) : Type := (⟨2, ![a, b]⟩ : Shape).Idx → EReal
abbrev Ten (a b c : Nat) : Type := (⟨3, ![a, b, c]⟩ : Shape).Idx → EReal

/-- The projected control of one control row: `ur · W1u + b1`. -/
def proj (w1u : Mat 128 512) (b1 : Mat 1 512) (ur : Fin 128 → EReal) : Fin 512 → EReal :=
  fun h => (∑ a : Fin 128, ur a * w1u (ix2 a h)) + b1 (ix2 0 h)

/-- One Euler step of one row: `x + tanh (x · W1x + up) · W2 + b2` (the step size is already folded into `W2`, `b2`). -/
def rowStep (w1x : Mat 128 512) (w2 : Mat 512 128) (b2 : Mat 1 128) (x : Fin 128 → EReal) (up : Fin 512 → EReal) :
    Fin 128 → EReal :=
  fun k => (x k + ∑ h : Fin 512, Ideal.tanh ((∑ a : Fin 128, x a * w1x (ix2 a h)) + up h) * w2 (ix2 h k)) + b2 (ix2 0 k)

/-- The state after `j` steps from `x`, step `i` driven by the control row `uc i`. -/
def steps (w1x w1u : Mat 128 512) (b1 : Mat 1 512) (w2 : Mat 512 128) (b2 : Mat 1 128) (x : Fin 128 → EReal)
    (uc : ℕ → Fin 128 → EReal) : ℕ → Fin 128 → EReal
  | 0 => x
  | j + 1 => rowStep w1x w2 b2 (steps w1x w1u b1 w2 b2 x uc j) (proj w1u b1 (uc j))

/-- Running `n + j` steps is running `n` steps and then `j` more on the controls from `n` on. -/
theorem steps_add (w1x w1u : Mat 128 512) (b1 : Mat 1 512) (w2 : Mat 512 128) (b2 : Mat 1 128) (x : Fin 128 → EReal)
    (uc : ℕ → Fin 128 → EReal) (n : ℕ) :
    ∀ j : ℕ, steps w1x w1u b1 w2 b2 x uc (n + j)
      = steps w1x w1u b1 w2 b2 (steps w1x w1u b1 w2 b2 x uc n) (fun i => uc (n + i)) j
  | 0 => rfl
  | j + 1 => by
    show rowStep w1x w2 b2 (steps w1x w1u b1 w2 b2 x uc (n + j)) (proj w1u b1 (uc (n + j))) = _
    rw [steps_add w1x w1u b1 w2 b2 x uc n j]
    rfl

/-- The steps depend on the controls only up to where they run. -/
theorem steps_congr (w1x w1u : Mat 128 512) (b1 : Mat 1 512) (w2 : Mat 512 128) (b2 : Mat 1 128) (x : Fin 128 → EReal)
    (uc uc' : ℕ → Fin 128 → EReal) :
    ∀ j : ℕ, (∀ i, i < j → uc i = uc' i) → steps w1x w1u b1 w2 b2 x uc j = steps w1x w1u b1 w2 b2 x uc' j
  | 0, _ => rfl
  | j + 1, h => by
    show rowStep w1x w2 b2 (steps w1x w1u b1 w2 b2 x uc j) (proj w1u b1 (uc j))
      = rowStep w1x w2 b2 (steps w1x w1u b1 w2 b2 x uc' j) (proj w1u b1 (uc' j))
    rw [steps_congr w1x w1u b1 w2 b2 x uc uc' j (fun i hi => h i (Nat.lt_succ_of_lt hi)), h j (Nat.lt_succ_self j)]

/-- The arrays the rollout is a function of: the initial states, the controls, and the network's five parameters
    (the last two already scaled by the step size). -/
structure Args where
  x0 : Mat 256 128
  u : Ten 512 256 128
  w1x : Mat 128 512
  w1u : Mat 128 512
  b1 : Mat 1 512
  w2 : Mat 512 128
  b2 : Mat 1 128

/-- The control row of batch row `p` at time `n` (zero past the last time, where no step reads it). -/
def ctrl (u : Ten 512 256 128) (p : Fin 256) (n : ℕ) : Fin 128 → EReal :=
  fun a => if h : n < 512 then u (ix3 ⟨n, h⟩ p a) else 0

/-- The state of batch row `p` after `n` steps. -/
def state (A : Args) (p : Fin 256) (n : ℕ) : Fin 128 → EReal :=
  steps A.w1x A.w1u A.b1 A.w2 A.b2 (fun k => A.x0 (ix2 p k)) (ctrl A.u p) n

/-- The rollout: at `(n, p, k)`, entry `k` of batch row `p`'s state after `n + 1` steps. -/
def G (A : Args) : Ten 512 256 128 := fun i => state A (i 1) ((i 0).val + 1) (i 2)

end Cert.Rollout

end
-- ==== Proof.LibPlainDot.lean ====
/-
  A plain matrix product of the matrix unit read at an element.

  A `tpu.matmul` into the zero accumulator with the dimension numbers `[1] x [0]` of an `[M, K]` by `[K, N]` product
  holds at the element `(a, b)` the sum over `c` of the left operand's `(a, c)` times the right operand's `(c, b)`:
  the sum over the contraction shape's one axis, re-indexed by `Fin K`. (The host's `dot_general` with the same
  dimension numbers is that same sum.)
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain `[M, K] x [K, N]` product at `(a, b)` is `∑ c, A (a, c) * B (c, b)`. -/
theorem sum_eq {M K N : Nat} (A : (⟨2, ![M, K]⟩ : Shape).Idx → EReal) (B : (⟨2, ![K, N]⟩ : Shape).Idx → EReal)
    (a : Fin M) (b : Fin N) :
    ∑ c : (DotDims.plain M K N).contr.Idx,
        A ((DotDims.plain M K N).lhsIdx (ix2 a b) c) * B ((DotDims.plain M K N).rhsIdx (ix2 a b) c)
      = ∑ c : Fin K, A (ix2 a c) * B (ix2 c b) := by
  rw [← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- The matrix unit's plain product into the zero accumulator, at `(a, b)`. -/
theorem matmul_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply]
  exact sum_eq A B a b

end Cert.Lib.PlainDot

end
-- ==== Proof.KStep.lean ====
/-
  One grid point of the kernel, row by row.

  The body holds a state tile of 128 batch rows and the controls of 8 consecutive times for those rows. It projects all
  1024 control rows at once (time `j`, row `r` at row `128 j + r` of the flattened block), and then steps the state tile
  eight times, step `j` reading rows `128 j … 128 j + 127` of the projection. Read at an entry, the product of a
  128-row tile with a weight matrix is the product of that one row: so the tile after `j` steps holds, at row `r`, the
  state row `r` reaches after `j` steps on its own controls.
-/
import proofs.«121607_g2000605949469319_pallasbulk_662_2_alg».proof.Proof.Gen.KernelIdeal.Skeleton
import proofs.«121607_g2000605949469319_pallasbulk_662_2_alg».proof.Proof.Spec
import proofs.«121607_g2000605949469319_pallasbulk_662_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Step

open Cert.KernelIdeal Cert.KernelIdeal.Gen Idealize.ShloMosaic Idealize.ShloMosaic.ValueIdx Cert.Rollout

/-- One step of the whole tile, as the body spells it: `x + tanh (x · W1x + up) · W2 + b2`, `b2` spread down the rows. -/
def stepV (w1x : FVec Ideal S128x512 .f32) (w2 : FVec Ideal S512x128 .f32) (b2 : FVec Ideal S1x128 .f32)
    (x : FVec Ideal S128x128 .f32) (up : FVec Ideal S128x512 .f32) : FVec Ideal S128x128 .f32 :=
  addf (addf x (matmul dot_S128x512_S512x128_S128x128_1_0_0_1_n_n none
    (tanh (addf (matmul dot_S128x128_S128x512_S128x512_1_0_0_1_n_n none x w1x (constant S128x512 .f32 0x00000000#32)) up))
    w2 (constant S128x128 .f32 0x00000000#32))) (broadcastTo S128x128 b2 broadcasts_S1x128_S128x128)

/-- Row `r` of the stepped tile is the step of row `r`. -/
theorem stepV_apply (w1x : FVec Ideal S128x512 .f32) (w2 : FVec Ideal S512x128 .f32) (b2 : FVec Ideal S1x128 .f32)
    (x : FVec Ideal S128x128 .f32) (up : FVec Ideal S128x512 .f32) (r k : Fin 128) :
    stepV w1x w2 b2 x up (ix2 r k) = rowStep w1x w2 b2 (fun a => x (ix2 r a)) (fun h => up (ix2 r h)) k := by
  have h1 : ∀ h : Fin 512, matmul dot_S128x128_S128x512_S128x512_1_0_0_1_n_n none x w1x (constant S128x512 .f32 0x00000000#32) (ix2 r h)
      = ∑ a : Fin 128, x (ix2 r a) * w1x (ix2 a h) :=
    fun h => Cert.Lib.PlainDot.matmul_zero_apply (M := 128) (K := 128) (N := 512) none x w1x r h
  have h2 : matmul dot_S128x512_S512x128_S128x128_1_0_0_1_n_n none
      (tanh (addf (matmul dot_S128x128_S128x512_S128x512_1_0_0_1_n_n none x w1x (constant S128x512 .f32 0x00000000#32)) up))
      w2 (constant S128x128 .f32 0x00000000#32) (ix2 r k)
      = ∑ h : Fin 512, (tanh (addf (matmul dot_S128x128_S128x512_S128x512_1_0_0_1_n_n none x w1x (constant S128x512 .f32 0x00000000#32)) up)) (ix2 r h) * w2 (ix2 h k) :=
    Cert.Lib.PlainDot.matmul_zero_apply (M := 128) (K := 512) (N := 128) none _ w2 r k
  have hb : broadcastTo S128x128 b2 broadcasts_S1x128_S128x128 (ix2 r k) = b2 (ix2 0 k) :=
    broadcastTo_apply b2 _ (ix2 r k) (ix2 0 k) (fun a => by
      match a with
      | ⟨0, _⟩ => rfl
      | ⟨1, _⟩ => rfl)
  unfold stepV rowStep
  rw [addf_apply, addf_apply, h2, hb]
  refine congrArg (fun z => x (ix2 r k) + z + b2 (ix2 0 k)) (Finset.sum_congr rfl fun h _ => ?_)
  show Ideal.tanh (matmul dot_S128x128_S128x512_S128x512_1_0_0_1_n_n none x w1x (constant S128x512 .f32 0x00000000#32) (ix2 r h) + up (ix2 r h)) * w2 (ix2 h k) = _
  rw [h1]

/-- The projection of the chunk's controls, at row `128 j + r`: the projected control of time `j`, row `r`. -/
theorem pay2_apply (v3 : FVec Ideal S8x128x128 .f32) (v6 : FVec Ideal S128x512 .f32) (v8 : FVec Ideal S1x512 .f32)
    (j : Fin 8) (r : Fin 128) (h : Fin 512) (q : Fin 1024) (hq : q.val = 128 * j.val + r.val) :
    k0_pay2 (F := Ideal) v3 v6 v8 (ix2 q h) = proj v6 v8 (fun a => v3 (ix3 j r a)) h := by
  have hc : ∀ a : Fin 128, shapeCast S1024x128 (shapeCast S8x128x128 v3 shapeCasts_S8x128x128_S8x128x128) shapeCasts_S8x128x128_S1024x128 (ix2 q a)
      = v3 (ix3 j r a) := fun a => by
    rw [shapeCast_self]
    refine shapeCast_apply _ _ _ _ ?_
    rw [Shape.rowMajor_val_three, Shape.rowMajor_val_two]
    show (j.val * 128 + r.val) * 128 + a.val = q.val * 128 + a.val
    rw [hq]; ring
  have hm : matmul dot_S1024x128_S128x512_S1024x512_1_0_0_1_n_n none
      (shapeCast S1024x128 (shapeCast S8x128x128 v3 shapeCasts_S8x128x128_S8x128x128) shapeCasts_S8x128x128_S1024x128) v6
      (constant S1024x512 .f32 0x00000000#32) (ix2 q h)
      = ∑ a : Fin 128, (shapeCast S1024x128 (shapeCast S8x128x128 v3 shapeCasts_S8x128x128_S8x128x128) shapeCasts_S8x128x128_S1024x128) (ix2 q a) * v6 (ix2 a h) :=
    Cert.Lib.PlainDot.matmul_zero_apply (M := 1024) (K := 128) (N := 512) none _ v6 q h
  have hb : broadcastTo S1024x512 v8 broadcasts_S1x512_S1024x512 (ix2 q h) = v8 (ix2 0 h) :=
    broadcastTo_apply v8 _ (ix2 q h) (ix2 0 h) (fun a => by
      match a with
      | ⟨0, _⟩ => rfl
      | ⟨1, _⟩ => rfl)
  unfold k0_pay2 proj
  dsimp only
  rw [addf_apply, hm, hb]
  simp only [hc]

/-- The rows of the projection that step `j` reads, at row `r`: the projected control of time `j`, row `r`. -/
theorem up_apply (v3 : FVec Ideal S8x128x128 .f32) (v6 : FVec Ideal S128x512 .f32) (v8 : FVec Ideal S1x512 .f32)
    (o : Nat) (hs : S1024x512.Slices ![o, 0] S128x512) (j : Fin 8) (ho : o = 128 * j.val) (r : Fin 128) (h : Fin 512) :
    extractStridedSlice S128x512 ![o, 0] (k0_pay2 (F := Ideal) v3 v6 v8) hs (ix2 r h) = proj v6 v8 (fun a => v3 (ix3 j r a)) h :=
  (slice2_axis0_apply o (k0_pay2 (F := Ideal) v3 v6 v8) hs r h ⟨o + r.val, by have := j.isLt; have := r.isLt; omega⟩ rfl).trans
    (pay2_apply v3 v6 v8 j r h _ (by show o + r.val = _; rw [ho]))

/-- The controls of row `r` of the tile, time by time within the chunk. -/
def ucK (v3 : FVec Ideal S8x128x128 .f32) (r : Fin 128) : ℕ → Fin 128 → EReal :=
  fun j a => if h : j < 8 then v3 (ix3 ⟨j, h⟩ r a) else 0

/-- If a tile holds, row by row, the states after `j` steps, the stepped tile holds the states after `j + 1`. -/
theorem stepV_steps (v3 : FVec Ideal S8x128x128 .f32) (v6 v11 : FVec Ideal S128x512 .f32) (v8 : FVec Ideal S1x512 .f32)
    (v12 : FVec Ideal S512x128 .f32) (v14 : FVec Ideal S1x128 .f32) (x : FVec Ideal S128x128 .f32)
    (s : FVec Ideal S128x128 .f32) (j : Fin 8) (o : Nat) (hs : S1024x512.Slices ![o, 0] S128x512) (ho : o = 128 * j.val)
    (hsj : ∀ r k : Fin 128, s (ix2 r k) = steps v11 v6 v8 v12 v14 (fun a => x (ix2 r a)) (ucK v3 r) j.val k) (r k : Fin 128) :
    stepV v11 (k0_pay3 (F := Ideal) v12) (k0_pay4 (F := Ideal) v14) s (extractStridedSlice S128x512 ![o, 0] (k0_pay2 (F := Ideal) v3 v6 v8) hs) (ix2 r k)
      = steps v11 v6 v8 v12 v14 (fun a => x (ix2 r a)) (ucK v3 r) (j.val + 1) k := by
  rw [stepV_apply]
  have e3 : k0_pay3 (F := Ideal) v12 = v12 := shapeCast_self _ _
  have e4 : k0_pay4 (F := Ideal) v14 = v14 := shapeCast_self _ _
  have es : (fun a => s (ix2 r a)) = steps v11 v6 v8 v12 v14 (fun a => x (ix2 r a)) (ucK v3 r) j.val := funext fun a => hsj r a
  have eu : (fun h => extractStridedSlice S128x512 ![o, 0] (k0_pay2 (F := Ideal) v3 v6 v8) hs (ix2 r h)) = proj v6 v8 (ucK v3 r j.val) :=
    funext fun h => (up_apply v3 v6 v8 o hs j ho r h).trans (by
      unfold ucK
      simp only [dif_pos j.isLt, Fin.eta])
  rw [e3, e4, es, eu]
  rfl

end Cert.KernelIdeal.Step

end
-- ==== Proof.KChunk.lean ====
/-
  The eight states of one grid point of the kernel.

  `S1 … S8` are the state tile after 1 … 8 steps of the chunk, as the body's own terms; each is the step of the one
  before on rows `128 j …` of the projected controls, so at row `r` each holds the state row `r` reaches after that
  many steps. The output block holds them one `[1, 128, 128]` slab per step, and the scratch ends at `S8`.
-/
import proofs.«121607_g2000605949469319_pallasbulk_662_2_alg».proof.Proof.KStep

noncomputable section

namespace Cert.KernelIdeal.Chunk

open Cert.KernelIdeal Cert.KernelIdeal.Gen Cert.KernelIdeal.Step Idealize.ShloMosaic Idealize.ShloMosaic.ValueIdx Cert.Rollout

def S1 (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : FVec Ideal S128x128 .f32 := k0_pay5 (F := Ideal) v3 v6 v8 v11 v12 v14 v16
/-- The hidden activations of the second step, which the body computes ahead of the second state. -/
def T1 (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : FVec Ideal S128x512 .f32 := k0_pay7 (F := Ideal) v3 v6 v8 v11 v12 v14 v16
def S2 (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : FVec Ideal S128x128 .f32 := k0_pay8 (F := Ideal) (k0_pay3 (F := Ideal) v12) (k0_pay4 (F := Ideal) v14) (S1 v3 v6 v11 v8 v12 v14 v16) (T1 v3 v6 v11 v8 v12 v14 v16)
def S3 (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : FVec Ideal S128x128 .f32 := k0_pay10 (F := Ideal) (k0_pay2 (F := Ideal) v3 v6 v8) v11 (k0_pay3 (F := Ideal) v12) (k0_pay4 (F := Ideal) v14) (S1 v3 v6 v11 v8 v12 v14 v16) (T1 v3 v6 v11 v8 v12 v14 v16)
def S4 (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : FVec Ideal S128x128 .f32 := k0_pay12 (F := Ideal) (k0_pay2 (F := Ideal) v3 v6 v8) v11 (k0_pay3 (F := Ideal) v12) (k0_pay4 (F := Ideal) v14) (S1 v3 v6 v11 v8 v12 v14 v16) (T1 v3 v6 v11 v8 v12 v14 v16)
def S5 (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : FVec Ideal S128x128 .f32 := k0_pay14 (F := Ideal) (k0_pay2 (F := Ideal) v3 v6 v8) v11 (k0_pay3 (F := Ideal) v12) (k0_pay4 (F := Ideal) v14) (S1 v3 v6 v11 v8 v12 v14 v16) (T1 v3 v6 v11 v8 v12 v14 v16)
def S6 (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : FVec Ideal S128x128 .f32 := k0_pay16 (F := Ideal) (k0_pay2 (F := Ideal) v3 v6 v8) v11 (k0_pay3 (F := Ideal) v12) (k0_pay4 (F := Ideal) v14) (S5 v3 v6 v11 v8 v12 v14 v16)
def S7 (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : FVec Ideal S128x128 .f32 := k0_pay18 (F := Ideal) (k0_pay2 (F := Ideal) v3 v6 v8) v11 (k0_pay3 (F := Ideal) v12) (k0_pay4 (F := Ideal) v14) (S5 v3 v6 v11 v8 v12 v14 v16)
def S8 (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : FVec Ideal S128x128 .f32 := k0_pay20 (F := Ideal) (k0_pay2 (F := Ideal) v3 v6 v8) v11 (k0_pay3 (F := Ideal) v12) (k0_pay4 (F := Ideal) v14) (S5 v3 v6 v11 v8 v12 v14 v16)

/-- Each state is the step of the one before (the first, of the tile the point starts from). -/
theorem S1_eq (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : S1 v3 v6 v11 v8 v12 v14 v16 = stepV v11 (k0_pay3 (F := Ideal) v12) (k0_pay4 (F := Ideal) v14) v16
    (extractStridedSlice S128x512 ![0, 0] (k0_pay2 (F := Ideal) v3 v6 v8) slices_S1024x512_o0_0_S128x512) := rfl
theorem S2_eq (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : S2 v3 v6 v11 v8 v12 v14 v16 = stepV v11 (k0_pay3 (F := Ideal) v12) (k0_pay4 (F := Ideal) v14) (S1 v3 v6 v11 v8 v12 v14 v16)
    (extractStridedSlice S128x512 ![128, 0] (k0_pay2 (F := Ideal) v3 v6 v8) slices_S1024x512_o128_0_S128x512) := rfl
theorem S3_eq (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : S3 v3 v6 v11 v8 v12 v14 v16 = stepV v11 (k0_pay3 (F := Ideal) v12) (k0_pay4 (F := Ideal) v14) (S2 v3 v6 v11 v8 v12 v14 v16)
    (extractStridedSlice S128x512 ![256, 0] (k0_pay2 (F := Ideal) v3 v6 v8) slices_S1024x512_o256_0_S128x512) := rfl
theorem S4_eq (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : S4 v3 v6 v11 v8 v12 v14 v16 = stepV v11 (k0_pay3 (F := Ideal) v12) (k0_pay4 (F := Ideal) v14) (S3 v3 v6 v11 v8 v12 v14 v16)
    (extractStridedSlice S128x512 ![384, 0] (k0_pay2 (F := Ideal) v3 v6 v8) slices_S1024x512_o384_0_S128x512) := rfl
theorem S5_eq (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : S5 v3 v6 v11 v8 v12 v14 v16 = stepV v11 (k0_pay3 (F := Ideal) v12) (k0_pay4 (F := Ideal) v14) (S4 v3 v6 v11 v8 v12 v14 v16)
    (extractStridedSlice S128x512 ![512, 0] (k0_pay2 (F := Ideal) v3 v6 v8) slices_S1024x512_o512_0_S128x512) := rfl
theorem S6_eq (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : S6 v3 v6 v11 v8 v12 v14 v16 = stepV v11 (k0_pay3 (F := Ideal) v12) (k0_pay4 (F := Ideal) v14) (S5 v3 v6 v11 v8 v12 v14 v16)
    (extractStridedSlice S128x512 ![640, 0] (k0_pay2 (F := Ideal) v3 v6 v8) slices_S1024x512_o640_0_S128x512) := rfl
theorem S7_eq (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : S7 v3 v6 v11 v8 v12 v14 v16 = stepV v11 (k0_pay3 (F := Ideal) v12) (k0_pay4 (F := Ideal) v14) (S6 v3 v6 v11 v8 v12 v14 v16)
    (extractStridedSlice S128x512 ![768, 0] (k0_pay2 (F := Ideal) v3 v6 v8) slices_S1024x512_o768_0_S128x512) := rfl
theorem S8_eq (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) : S8 v3 v6 v11 v8 v12 v14 v16 = stepV v11 (k0_pay3 (F := Ideal) v12) (k0_pay4 (F := Ideal) v14) (S7 v3 v6 v11 v8 v12 v14 v16)
    (extractStridedSlice S128x512 ![896, 0] (k0_pay2 (F := Ideal) v3 v6 v8) slices_S1024x512_o896_0_S128x512) := rfl

/-- Row `r` of the state after `j` steps is row `r`'s own state after `j` steps. -/
theorem S1_apply (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) (r k : Fin 128) :
    S1 v3 v6 v11 v8 v12 v14 v16 (ix2 r k) = steps v11 v6 v8 v12 v14 (fun a => v16 (ix2 r a)) (ucK v3 r) 1 k := by
  rw [S1_eq]
  exact stepV_steps v3 v6 v11 v8 v12 v14 v16 v16 0 0 _ rfl (fun _ _ => rfl) r k
theorem S2_apply (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) (r k : Fin 128) :
    S2 v3 v6 v11 v8 v12 v14 v16 (ix2 r k) = steps v11 v6 v8 v12 v14 (fun a => v16 (ix2 r a)) (ucK v3 r) 2 k := by
  rw [S2_eq]
  exact stepV_steps v3 v6 v11 v8 v12 v14 v16 (S1 v3 v6 v11 v8 v12 v14 v16) 1 128 _ rfl (S1_apply v3 v6 v11 v8 v12 v14 v16) r k
theorem S3_apply (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) (r k : Fin 128) :
    S3 v3 v6 v11 v8 v12 v14 v16 (ix2 r k) = steps v11 v6 v8 v12 v14 (fun a => v16 (ix2 r a)) (ucK v3 r) 3 k := by
  rw [S3_eq]
  exact stepV_steps v3 v6 v11 v8 v12 v14 v16 (S2 v3 v6 v11 v8 v12 v14 v16) 2 256 _ rfl (S2_apply v3 v6 v11 v8 v12 v14 v16) r k
theorem S4_apply (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) (r k : Fin 128) :
    S4 v3 v6 v11 v8 v12 v14 v16 (ix2 r k) = steps v11 v6 v8 v12 v14 (fun a => v16 (ix2 r a)) (ucK v3 r) 4 k := by
  rw [S4_eq]
  exact stepV_steps v3 v6 v11 v8 v12 v14 v16 (S3 v3 v6 v11 v8 v12 v14 v16) 3 384 _ rfl (S3_apply v3 v6 v11 v8 v12 v14 v16) r k
theorem S5_apply (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) (r k : Fin 128) :
    S5 v3 v6 v11 v8 v12 v14 v16 (ix2 r k) = steps v11 v6 v8 v12 v14 (fun a => v16 (ix2 r a)) (ucK v3 r) 5 k := by
  rw [S5_eq]
  exact stepV_steps v3 v6 v11 v8 v12 v14 v16 (S4 v3 v6 v11 v8 v12 v14 v16) 4 512 _ rfl (S4_apply v3 v6 v11 v8 v12 v14 v16) r k
theorem S6_apply (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) (r k : Fin 128) :
    S6 v3 v6 v11 v8 v12 v14 v16 (ix2 r k) = steps v11 v6 v8 v12 v14 (fun a => v16 (ix2 r a)) (ucK v3 r) 6 k := by
  rw [S6_eq]
  exact stepV_steps v3 v6 v11 v8 v12 v14 v16 (S5 v3 v6 v11 v8 v12 v14 v16) 5 640 _ rfl (S5_apply v3 v6 v11 v8 v12 v14 v16) r k
theorem S7_apply (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) (r k : Fin 128) :
    S7 v3 v6 v11 v8 v12 v14 v16 (ix2 r k) = steps v11 v6 v8 v12 v14 (fun a => v16 (ix2 r a)) (ucK v3 r) 7 k := by
  rw [S7_eq]
  exact stepV_steps v3 v6 v11 v8 v12 v14 v16 (S6 v3 v6 v11 v8 v12 v14 v16) 6 768 _ rfl (S6_apply v3 v6 v11 v8 v12 v14 v16) r k
theorem S8_apply (v3 : FVec Ideal S8x128x128 .f32) (v6 v11 : FVec Ideal S128x512 .f32) (v8 : FVec Ideal S1x512 .f32) (v12 : FVec Ideal S512x128 .f32) (v14 : FVec Ideal S1x128 .f32) (v16 : FVec Ideal S128x128 .f32) (r k : Fin 128) :
    S8 v3 v6 v11 v8 v12 v14 v16 (ix2 r k) = steps v11 v6 v8 v12 v14 (fun a => v16 (ix2 r a)) (ucK v3 r) 8 k := by
  rw [S8_eq]
  exact stepV_steps v3 v6 v11 v8 v12 v14 v16 (S7 v3 v6 v11 v8 v12 v14 v16) 7 896 _ rfl (S7_apply v3 v6 v11 v8 v12 v14 v16) r k

/-- What a point leaves in its output block, as one function of the block index: at `(j, r, k)`, entry `k` of row `r`'s
    state after `j + 1` steps from the tile `xin` the point starts from. -/
def blockG (xin : FVec Ideal S128x128 .f32) (v3 : FVec Ideal S8x128x128 .f32) (v6 v11 : FVec Ideal S128x512 .f32)
    (v8 : FVec Ideal S1x512 .f32) (v12 : FVec Ideal S512x128 .f32) (v14 : FVec Ideal S1x128 .f32) : FVec Ideal S8x128x128 .f32 :=
  fun y => steps v11 v6 v8 v12 v14 (fun a => xin (ix2 (y 1) a)) (ucK v3 (y 1)) ((y 0).val + 1) (y 2)

/-- What a point leaves in the carried state tile: every row after all eight steps. -/
def tileG (xin : FVec Ideal S128x128 .f32) (v3 : FVec Ideal S8x128x128 .f32) (v6 v11 : FVec Ideal S128x512 .f32)
    (v8 : FVec Ideal S1x512 .f32) (v12 : FVec Ideal S512x128 .f32) (v14 : FVec Ideal S1x128 .f32) : FVec Ideal S128x128 .f32 :=
  fun y => steps v11 v6 v8 v12 v14 (fun a => xin (ix2 (y 0) a)) (ucK v3 (y 0)) 8 (y 1)

/-- A state tile that holds the states after `o + 1` steps, stored as slab `o` of the block, is the block's function
    there. -/
theorem slab_eq (xin : FVec Ideal S128x128 .f32) (v3 : FVec Ideal S8x128x128 .f32) (v6 v11 : FVec Ideal S128x512 .f32)
    (v8 : FVec Ideal S1x512 .f32) (v12 : FVec Ideal S512x128 .f32) (v14 : FVec Ideal S1x128 .f32)
    (S : FVec Ideal S128x128 .f32) (o : Nat) (inb : ∀ a, (![o, 0, 0] : Fin 3 → Nat) a + (![1, 128, 128] : Fin 3 → Nat) a ≤ S8x128x128.size a)
    (hS : ∀ r k : Fin 128, S (ix2 r k) = steps v11 v6 v8 v12 v14 (fun a => xin (ix2 r a)) (ucK v3 r) (o + 1) k)
    (x : S1x128x128.Idx) :
    shapeCast S1x128x128 S shapeCasts_S128x128_S1x128x128 x
      = blockG xin v3 v6 v11 v8 v12 v14 ((Rect.unit (s := S8x128x128) ![o, 0, 0] ![1, 128, 128] inb).emb x) := by
  obtain ⟨z, p, q, rfl⟩ : ∃ (z : Fin 1) (p q : Fin 128), x = ix3 z p q := ⟨x 0, x 1, x 2, eq_ix3 x⟩
  have h0 : z.val = 0 := by have := z.isLt; omega
  have e1 : ((Rect.unit (s := S8x128x128) ![o, 0, 0] ![1, 128, 128] inb).emb (ix3 z p q)) 1 = p :=
    Fin.ext (by show 0 + 1 * p.val = p.val; omega)
  have e2 : ((Rect.unit (s := S8x128x128) ![o, 0, 0] ![1, 128, 128] inb).emb (ix3 z p q)) 2 = q :=
    Fin.ext (by show 0 + 1 * q.val = q.val; omega)
  have e0 : (((Rect.unit (s := S8x128x128) ![o, 0, 0] ![1, 128, 128] inb).emb (ix3 z p q)) 0).val = o := by
    show o + 1 * z.val = o; omega
  have hc : shapeCast S1x128x128 S shapeCasts_S128x128_S1x128x128 (ix3 z p q) = S (ix2 p q) :=
    shapeCast_apply S _ (ix3 z p q) (ix2 p q) (by
      rw [Shape.rowMajor_val_three, Shape.rowMajor_val_two]
      show p.val * 128 + q.val = (z.val * 128 + p.val) * 128 + q.val
      rw [h0]; omega)
  rw [hc, hS p q]
  unfold blockG
  rw [e0, e1, e2]

end Cert.KernelIdeal.Chunk

end
-- ==== Proof.KCase.lean ====
import proofs.«121607_g2000605949469319_pallasbulk_662_2_alg».proof.Proof.Gen.KernelIdeal.Frame
import proofs.«121607_g2000605949469319_pallasbulk_662_2_alg».proof.Proof.KChunk
import Idealize.ShloMosaic.Lib.Tactic
/-
  What each of the kernel's two control cases leaves, read as values.

  At the first time chunk of a batch tile the body first copies the tile of initial states into the carried state and
  reads it back; at every other chunk it starts from the carried state the chunk before left. Either way the output
  block ends holding the eight states of the chunk, slab by slab, and the carried state the last of them.
-/
noncomputable section
namespace Cert.KernelIdeal.Case
open Cert.KernelIdeal Cert.KernelIdeal.Gen Cert.KernelIdeal.Step Cert.KernelIdeal.Chunk Idealize.ShloMosaic Idealize.ShloMosaic.ValueIdx Idealize.ShloMosaic.TcCoe Idealize.SL.Sem Cert.Rollout

theorem hz2 : (![0, 0] : Fin 2 → Nat) = fun _ => 0 := funext fun a => by fin_cases a <;> rfl
theorem hz3 : (![0, 0, 0] : Fin 3 → Nat) = fun _ => 0 := funext fun a => by fin_cases a <;> rfl

/-- The reset store's payload is the tile of initial states itself. -/
theorem pay1_eq (x0 : FVec Ideal S128x128 .f32) : k0_pay1 (F := Ideal) x0 = x0 := by
  unfold k0_pay1
  simp only [shapeCast_self]

/-- A later chunk: the output block is the eight states from the carried tile `xs0`. -/
theorem out_B (c : Dev nD) (i : grid0.Coords) (arg2 : Memref sig .tc .vmem S128x128 .f32) (harg2 : arg2.IsWhole) (arg3 : Memref sig .tc .vmem S8x128x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S8x128x128 .f32) (harg9 : arg9.IsWhole) (arg10 : Memref sig .tc .vmem S128x128 .f32) (harg10 : arg10.IsWhole) (hc0 : ¬cond0_0 i) (x0 : FVec Ideal S128x128 .f32) (x1 : FVec Ideal S8x128x128 .f32) (x2 : FVec Ideal S128x512 .f32) (x3 : FVec Ideal S128x512 .f32) (x4 : FVec Ideal S1x512 .f32) (x5 : FVec Ideal S512x128 .f32) (x6 : FVec Ideal S1x128 .f32) (xs0 : FVec Ideal S128x128 .f32) :
    out0_B_7 (F := Ideal) c i arg2 harg2 arg3 harg3 arg4 harg4 arg5 harg5 arg6 harg6 arg7 harg7 arg8 harg8 arg9 harg9 arg10 harg10 hc0 x0 x1 x2 x3 x4 x5 x6 xs0 = blockG xs0 x1 x3 x2 x4 x5 x6 := by
  unfold out0_B_7
  rw [View.read_writes_eq_canon _ _ _ (cover0_B_7 (F := Ideal) c i arg2 harg2 arg3 harg3 arg4 harg4 arg5 harg5 arg6 harg6 arg7 harg7 arg8 harg8 arg9 harg9 arg10 harg10 hc0 x0 x1 x2 x3 x4 x5 x6 xs0)]
  funext y
  refine View.canon_apply_of_pieces (blockG xs0 x1 x3 x2 x4 x5 x6) _ ?_ y (cover0_B_7 (F := Ideal) c i arg2 harg2 arg3 harg3 arg4 harg4 arg5 harg5 arg6 harg6 arg7 harg7 arg8 harg8 arg9 harg9 arg10 harg10 hc0 x0 x1 x2 x3 x4 x5 x6 xs0 y)
  unfold kernelRun0_B
  dsimp only
  sl_unfold_words
  simp only [View.readAt_eq_ld, harg2.read_unread, harg3.read_unread, harg4.read_unread, harg5.read_unread, harg6.read_unread, harg7.read_unread, harg8.read_unread, harg10.read_unread, View.ld_unit_zero (S := S128x128) hz2, View.ld_unit_zero (S := S8x128x128) hz3, View.ld_unit_zero (S := S128x512) hz2, View.ld_unit_zero (S := S1x512) hz2, View.ld_unit_zero (S := S512x128) hz2, View.ld_unit_zero (S := S1x128) hz2]
  intro p hp
  simp only [List.mem_cons, List.not_mem_nil, or_false] at hp
  rcases hp with rfl | rfl | rfl | rfl | rfl | rfl | rfl | rfl
  · exact slab_eq xs0 x1 x3 x2 x4 x5 x6 (S8 x1 x3 x2 x4 x5 x6 xs0) 7 inb_S8x128x128_S1x128x128_7_0_0 (S8_apply x1 x3 x2 x4 x5 x6 xs0)
  · exact slab_eq xs0 x1 x3 x2 x4 x5 x6 (S7 x1 x3 x2 x4 x5 x6 xs0) 6 inb_S8x128x128_S1x128x128_6_0_0 (S7_apply x1 x3 x2 x4 x5 x6 xs0)
  · exact slab_eq xs0 x1 x3 x2 x4 x5 x6 (S6 x1 x3 x2 x4 x5 x6 xs0) 5 inb_S8x128x128_S1x128x128_5_0_0 (S6_apply x1 x3 x2 x4 x5 x6 xs0)
  · exact slab_eq xs0 x1 x3 x2 x4 x5 x6 (S5 x1 x3 x2 x4 x5 x6 xs0) 4 inb_S8x128x128_S1x128x128_4_0_0 (S5_apply x1 x3 x2 x4 x5 x6 xs0)
  · exact slab_eq xs0 x1 x3 x2 x4 x5 x6 (S4 x1 x3 x2 x4 x5 x6 xs0) 3 inb_S8x128x128_S1x128x128_3_0_0 (S4_apply x1 x3 x2 x4 x5 x6 xs0)
  · exact slab_eq xs0 x1 x3 x2 x4 x5 x6 (S3 x1 x3 x2 x4 x5 x6 xs0) 2 inb_S8x128x128_S1x128x128_2_0_0 (S3_apply x1 x3 x2 x4 x5 x6 xs0)
  · exact slab_eq xs0 x1 x3 x2 x4 x5 x6 (S2 x1 x3 x2 x4 x5 x6 xs0) 1 inb_S8x128x128_S1x128x128_1_0_0 (S2_apply x1 x3 x2 x4 x5 x6 xs0)
  · exact slab_eq xs0 x1 x3 x2 x4 x5 x6 (S1 x1 x3 x2 x4 x5 x6 xs0) 0 inb_S8x128x128_S1x128x128_0_0_0 (S1_apply x1 x3 x2 x4 x5 x6 xs0)

/-- A later chunk: the carried tile ends at the eighth state. -/
theorem tile_B (c : Dev nD) (i : grid0.Coords) (arg2 : Memref sig .tc .vmem S128x128 .f32) (harg2 : arg2.IsWhole) (arg3 : Memref sig .tc .vmem S8x128x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S8x128x128 .f32) (harg9 : arg9.IsWhole) (arg10 : Memref sig .tc .vmem S128x128 .f32) (harg10 : arg10.IsWhole) (hc0 : ¬cond0_0 i) (x0 : FVec Ideal S128x128 .f32) (x1 : FVec Ideal S8x128x128 .f32) (x2 : FVec Ideal S128x512 .f32) (x3 : FVec Ideal S128x512 .f32) (x4 : FVec Ideal S1x512 .f32) (x5 : FVec Ideal S512x128 .f32) (x6 : FVec Ideal S1x128 .f32) (xs0 : FVec Ideal S128x128 .f32) :
    sout0_B_0 (F := Ideal) c i arg2 harg2 arg3 harg3 arg4 harg4 arg5 harg5 arg6 harg6 arg7 harg7 arg8 harg8 arg9 harg9 arg10 harg10 hc0 x0 x1 x2 x3 x4 x5 x6 xs0 = tileG xs0 x1 x3 x2 x4 x5 x6 := by
  unfold sout0_B_0
  rw [View.read_writes_eq_canon _ _ _ (scover0_B_0 (F := Ideal) c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, View.ld_unit_zero (S := S128x128) hz2, View.ld_unit_zero (S := S8x128x128) hz3, View.ld_unit_zero (S := S128x512) hz2, View.ld_unit_zero (S := S1x512) hz2, View.ld_unit_zero (S := S512x128) hz2, View.ld_unit_zero (S := S1x128) hz2]
  funext y
  obtain ⟨r, k, rfl⟩ : ∃ r k : Fin 128, y = ix2 r k := ⟨y 0, y 1, eq_ix2 y⟩
  show shapeCast S128x128 (S8 x1 x3 x2 x4 x5 x6 xs0) shapeCasts_S128x128_S128x128 (ix2 r k) = _
  rw [shapeCast_self]
  exact S8_apply x1 x3 x2 x4 x5 x6 xs0 r k

/-- The first chunk: the output block is the eight states from the tile of initial states `x0`. -/
theorem out_A (c : Dev nD) (i : grid0.Coords) (arg2 : Memref sig .tc .vmem S128x128 .f32) (harg2 : arg2.IsWhole) (arg3 : Memref sig .tc .vmem S8x128x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S8x128x128 .f32) (harg9 : arg9.IsWhole) (arg10 : Memref sig .tc .vmem S128x128 .f32) (harg10 : arg10.IsWhole) (hc0 : cond0_0 i) (x0 : FVec Ideal S128x128 .f32) (x1 : FVec Ideal S8x128x128 .f32) (x2 : FVec Ideal S128x512 .f32) (x3 : FVec Ideal S128x512 .f32) (x4 : FVec Ideal S1x512 .f32) (x5 : FVec Ideal S512x128 .f32) (x6 : FVec Ideal S1x128 .f32) :
    out0_A_7 (F := Ideal) c i arg2 harg2 arg3 harg3 arg4 harg4 arg5 harg5 arg6 harg6 arg7 harg7 arg8 harg8 arg9 harg9 arg10 harg10 hc0 x0 x1 x2 x3 x4 x5 x6 = blockG x0 x1 x3 x2 x4 x5 x6 := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 hc0 x0 x1 x2 x3 x4 x5 x6)]
  funext y
  refine View.canon_apply_of_pieces (blockG x0 x1 x3 x2 x4 x5 x6) _ ?_ y (cover0_A_7 (F := Ideal) c i arg2 harg2 arg3 harg3 arg4 harg4 arg5 harg5 arg6 harg6 arg7 harg7 arg8 harg8 arg9 harg9 arg10 harg10 hc0 x0 x1 x2 x3 x4 x5 x6 y)
  unfold kernelRun0_A
  dsimp only
  sl_unfold_words
  rw [View.readCov_unit_zero (S := S128x128) _ hz2]
  simp only [View.readAt_eq_ld, harg2.read_unread, harg3.read_unread, harg4.read_unread, harg5.read_unread, harg6.read_unread, harg7.read_unread, harg8.read_unread, harg10.read_unread, View.ld_unit_zero (S := S128x128) hz2, View.ld_unit_zero (S := S8x128x128) hz3, View.ld_unit_zero (S := S128x512) hz2, View.ld_unit_zero (S := S1x512) hz2, View.ld_unit_zero (S := S512x128) hz2, View.ld_unit_zero (S := S1x128) hz2, pay1_eq]
  intro p hp
  simp only [List.mem_cons, List.not_mem_nil, or_false] at hp
  rcases hp with rfl | rfl | rfl | rfl | rfl | rfl | rfl | rfl
  · exact slab_eq x0 x1 x3 x2 x4 x5 x6 (S8 x1 x3 x2 x4 x5 x6 x0) 7 inb_S8x128x128_S1x128x128_7_0_0 (S8_apply x1 x3 x2 x4 x5 x6 x0)
  · exact slab_eq x0 x1 x3 x2 x4 x5 x6 (S7 x1 x3 x2 x4 x5 x6 x0) 6 inb_S8x128x128_S1x128x128_6_0_0 (S7_apply x1 x3 x2 x4 x5 x6 x0)
  · exact slab_eq x0 x1 x3 x2 x4 x5 x6 (S6 x1 x3 x2 x4 x5 x6 x0) 5 inb_S8x128x128_S1x128x128_5_0_0 (S6_apply x1 x3 x2 x4 x5 x6 x0)
  · exact slab_eq x0 x1 x3 x2 x4 x5 x6 (S5 x1 x3 x2 x4 x5 x6 x0) 4 inb_S8x128x128_S1x128x128_4_0_0 (S5_apply x1 x3 x2 x4 x5 x6 x0)
  · exact slab_eq x0 x1 x3 x2 x4 x5 x6 (S4 x1 x3 x2 x4 x5 x6 x0) 3 inb_S8x128x128_S1x128x128_3_0_0 (S4_apply x1 x3 x2 x4 x5 x6 x0)
  · exact slab_eq x0 x1 x3 x2 x4 x5 x6 (S3 x1 x3 x2 x4 x5 x6 x0) 2 inb_S8x128x128_S1x128x128_2_0_0 (S3_apply x1 x3 x2 x4 x5 x6 x0)
  · exact slab_eq x0 x1 x3 x2 x4 x5 x6 (S2 x1 x3 x2 x4 x5 x6 x0) 1 inb_S8x128x128_S1x128x128_1_0_0 (S2_apply x1 x3 x2 x4 x5 x6 x0)
  · exact slab_eq x0 x1 x3 x2 x4 x5 x6 (S1 x1 x3 x2 x4 x5 x6 x0) 0 inb_S8x128x128_S1x128x128_0_0_0 (S1_apply x1 x3 x2 x4 x5 x6 x0)

/-- The first chunk: the carried tile ends at the eighth state. -/
theorem tile_A (c : Dev nD) (i : grid0.Coords) (arg2 : Memref sig .tc .vmem S128x128 .f32) (harg2 : arg2.IsWhole) (arg3 : Memref sig .tc .vmem S8x128x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S8x128x128 .f32) (harg9 : arg9.IsWhole) (arg10 : Memref sig .tc .vmem S128x128 .f32) (harg10 : arg10.IsWhole) (hc0 : cond0_0 i) (x0 : FVec Ideal S128x128 .f32) (x1 : FVec Ideal S8x128x128 .f32) (x2 : FVec Ideal S128x512 .f32) (x3 : FVec Ideal S128x512 .f32) (x4 : FVec Ideal S1x512 .f32) (x5 : FVec Ideal S512x128 .f32) (x6 : FVec Ideal S1x128 .f32) :
    sout0_A_0 (F := Ideal) c i arg2 harg2 arg3 harg3 arg4 harg4 arg5 harg5 arg6 harg6 arg7 harg7 arg8 harg8 arg9 harg9 arg10 harg10 hc0 x0 x1 x2 x3 x4 x5 x6 = tileG x0 x1 x3 x2 x4 x5 x6 := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S128x128) hz2]
  rw [View.readCov_unit_zero (S := S128x128) _ hz2]
  simp only [View.readAt_eq_ld, harg2.read_unread, harg3.read_unread, harg4.read_unread, harg5.read_unread, harg6.read_unread, harg7.read_unread, harg8.read_unread, harg10.read_unread, View.ld_unit_zero (S := S128x128) hz2, View.ld_unit_zero (S := S8x128x128) hz3, View.ld_unit_zero (S := S128x512) hz2, View.ld_unit_zero (S := S1x512) hz2, View.ld_unit_zero (S := S512x128) hz2, View.ld_unit_zero (S := S1x128) hz2, pay1_eq]
  funext y
  obtain ⟨r, k, rfl⟩ : ∃ r k : Fin 128, y = ix2 r k := ⟨y 0, y 1, eq_ix2 y⟩
  show shapeCast S128x128 (S8 x1 x3 x2 x4 x5 x6 x0) shapeCasts_S128x128_S128x128 (ix2 r k) = _
  rw [shapeCast_self]
  exact S8_apply x1 x3 x2 x4 x5 x6 x0 r k

end Cert.KernelIdeal.Case
end
-- ==== Proof.KBlocks.lean ====
/-
  The kernel's windows, read at an index.

  The grid runs the two batch tiles one after the other, each through its 64 time chunks: point `t` is tile `t / 64`,
  chunk `t % 64`. Its window of initial states is rows `128 (t / 64) …` of the padded initial states, its window of
  controls is times `8 (t % 64) …` of those rows of the padded controls, and the five parameter windows are the whole
  arrays. The block reads are stated for any array, so that nothing about how the padded arrays were made enters.
-/
import proofs.«121607_g2000605949469319_pallasbulk_662_2_alg».proof.Proof.Gen.KernelIdeal.Value
import proofs.«121607_g2000605949469319_pallasbulk_662_2_alg».proof.Proof.KCase

noncomputable section

namespace Cert.KernelIdeal.Blocks

open Cert.KernelIdeal Cert.KernelIdeal.Gen
open Idealize.ShloMosaic Idealize.ShloMosaic.ValueIdx Idealize.ShloMosaic.TcCoe Idealize.SL.Sem Cert.Rollout

variable (m : (ℓ : Loc nD τ sig) → Buf (Elt Ideal) ℓ)

theorem lt_N (t : Fin cfg0.N) : t.val < 128 := lt_of_lt_of_eq t.isLt (show cfg0.N = 128 from N_0)

/-- The batch row that row `r` of point `t`'s tile is, and the time that step `j` of its chunk is. -/
def rowOf (t : Fin cfg0.N) (r : Fin 128) : Fin 256 := ⟨128 * (t.val / 64) + r.val, by have := lt_N t; have := r.isLt; omega⟩
def timeOf (t : Fin cfg0.N) (j : Fin 8) : Fin 512 := ⟨8 * (t.val % 64) + j.val, by have := lt_N t; have := j.isLt; omega⟩

/-- The padded initial states and the padded controls, as the region finds them. -/
def arrX0 (c : Dev nD) : Mat 256 128 := V m c main_v5
def arrU (c : Dev nD) : Ten 512 256 128 := V m c main_v7

/-! ## The index maps, decided over the grid -/

theorem idx0 : ∀ t : Fin cfg0.N, win0_0.index t (0 : Fin 2) = t.val / 64 ∧ win0_0.index t (1 : Fin 2) = 0 :=
  (by decide +kernel : ∀ t : Fin grid0.N, _)
theorem idx1 : ∀ t : Fin cfg0.N, win0_1.index t (0 : Fin 3) = t.val % 64 ∧ win0_1.index t (1 : Fin 3) = t.val / 64
    ∧ win0_1.index t (2 : Fin 3) = 0 :=
  (by decide +kernel : ∀ t : Fin grid0.N, _)
theorem idx7 : ∀ t : Fin cfg0.N, win0_7.index t (0 : Fin 3) = t.val % 64 ∧ win0_7.index t (1 : Fin 3) = t.val / 64
    ∧ win0_7.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-! ## A block of any array, read at an index -/

theorem read0 (t : Fin cfg0.N) (X : (⟨S256x128, .f32⟩ : BufTy).Contents (Elt Ideal)) (r k : Fin 128) :
    ((cfg0.win 0).blk t).view.read (Elt Ideal) X (ix2 r k) = X (ix2 (rowOf t r) k) := by
  obtain ⟨e0, e1⟩ := idx0 t
  rw [View.read_apply]
  refine congrArg X (funext fun a => Fin.ext ?_)
  match a with
  | ⟨0, _⟩ => show win0_0.index t (0 : Fin 2) * 128 + 1 * r.val = 128 * (t.val / 64) + r.val; rw [e0]; omega
  | ⟨1, _⟩ => show win0_0.index t (1 : Fin 2) * 128 + 1 * k.val = k.val; rw [e1]; omega

theorem read1 (t : Fin cfg0.N) (X : (⟨S512x256x128, .f32⟩ : BufTy).Contents (Elt Ideal)) (j : Fin 8) (r a : Fin 128) :
    ((cfg0.win 1).blk t).view.read (Elt Ideal) X (ix3 j r a) = X (ix3 (timeOf t j) (rowOf t r) a) := by
  obtain ⟨e0, e1, e2⟩ := idx1 t
  rw [View.read_apply]
  refine congrArg X (funext fun b => Fin.ext ?_)
  match b with
  | ⟨0, _⟩ => show win0_1.index t (0 : Fin 3) * 8 + 1 * j.val = 8 * (t.val % 64) + j.val; rw [e0]; omega
  | ⟨1, _⟩ => show win0_1.index t (1 : Fin 3) * 128 + 1 * r.val = 128 * (t.val / 64) + r.val; rw [e1]; omega
  | ⟨2, _⟩ => show win0_1.index t (2 : Fin 3) * 128 + 1 * a.val = a.val; rw [e2]; omega

/-- The output window's block of any array: the same rows and times. -/
theorem read7 (t : Fin cfg0.N) (X : (⟨S512x256x128, .f32⟩ : BufTy).Contents (Elt Ideal)) (j : Fin 8) (r a : Fin 128) :
    ((cfg0.win 7).blk t).view.read (Elt Ideal) X (ix3 j r a) = X (ix3 (timeOf t j) (rowOf t r) a) := by
  obtain ⟨e0, e1, e2⟩ := idx7 t
  rw [View.read_apply]
  refine congrArg X (funext fun b => Fin.ext ?_)
  match b with
  | ⟨0, _⟩ => show win0_7.index t (0 : Fin 3) * 8 + 1 * j.val = 8 * (t.val % 64) + j.val; rw [e0]; omega
  | ⟨1, _⟩ => show win0_7.index t (1 : Fin 3) * 128 + 1 * r.val = 128 * (t.val / 64) + r.val; rw [e1]; omega
  | ⟨2, _⟩ => show win0_7.index t (2 : Fin 3) * 128 + 1 * a.val = a.val; rw [e2]; omega

/-! ## The windows' blocks -/

theorem iblk0_unfold (c : Dev nD) (t : Fin cfg0.N) :
    (iblk m c 0 t : FVec Ideal S128x128 .f32) = ((cfg0.win 0).blk t).view.read (Elt Ideal) (arrX0 m c) := rfl
theorem iblk1_unfold (c : Dev nD) (t : Fin cfg0.N) :
    (iblk m c 1 t : FVec Ideal S8x128x128 .f32) = ((cfg0.win 1).blk t).view.read (Elt Ideal) (arrU m c) := rfl

theorem iblk0_apply (c : Dev nD) (t : Fin cfg0.N) (r k : Fin 128) :
    (iblk m c 0 t : FVec Ideal S128x128 .f32) (ix2 r k) = arrX0 m c (ix2 (rowOf t r) k) := by
  rw [iblk0_unfold]
  exact read0 t (arrX0 m c) r k

theorem iblk1_apply (c : Dev nD) (t : Fin cfg0.N) (j : Fin 8) (r a : Fin 128) :
    (iblk m c 1 t : FVec Ideal S8x128x128 .f32) (ix3 j r a) = arrU m c (ix3 (timeOf t j) (rowOf t r) a) := by
  rw [iblk1_unfold]
  exact read1 t (arrU m c) j r a

theorem iblk2_eq (c : Dev nD) (t : Fin cfg0.N) : (iblk m c 2 t : FVec Ideal S128x512 .f32) = V m c main_arg2 := by
  obtain ⟨e0, e1⟩ := idx2 t
  funext y
  obtain ⟨p, q, rfl⟩ : ∃ (p : Fin 128) (q : Fin 512), y = ix2 p q := ⟨y 0, y 1, eq_ix2 y⟩
  show V m c main_arg2 (((cfg0.win 2).blk t).view.emb (ix2 p q)) = V m c main_arg2 (ix2 p q)
  refine congrArg (V m c main_arg2) (funext fun a => Fin.ext ?_)
  match a with
  | ⟨0, _⟩ => show win0_2.index t (0 : Fin 2) * 128 + 1 * p.val = p.val; rw [e0]; omega
  | ⟨1, _⟩ => show win0_2.index t (1 : Fin 2) * 512 + 1 * q.val = q.val; rw [e1]; omega

theorem iblk3_eq (c : Dev nD) (t : Fin cfg0.N) : (iblk m c 3 t : FVec Ideal S128x512 .f32) = V m c main_arg3 := by
  obtain ⟨e0, e1⟩ := idx3 t
  funext y
  obtain ⟨p, q, rfl⟩ : ∃ (p : Fin 128) (q : Fin 512), y = ix2 p q := ⟨y 0, y 1, eq_ix2 y⟩
  show V m c main_arg3 (((cfg0.win 3).blk t).view.emb (ix2 p q)) = V m c main_arg3 (ix2 p q)
  refine congrArg (V m c main_arg3) (funext fun a => Fin.ext ?_)
  match a with
  | ⟨0, _⟩ => show win0_3.index t (0 : Fin 2) * 128 + 1 * p.val = p.val; rw [e0]; omega
  | ⟨1, _⟩ => show win0_3.index t (1 : Fin 2) * 512 + 1 * q.val = q.val; rw [e1]; omega

theorem iblk4_eq (c : Dev nD) (t : Fin cfg0.N) : (iblk m c 4 t : FVec Ideal S1x512 .f32) = V m c main_arg4 := by
  obtain ⟨e0, e1⟩ := idx4 t
  funext y
  obtain ⟨p, q, rfl⟩ : ∃ (p : Fin 1) (q : Fin 512), y = ix2 p q := ⟨y 0, y 1, eq_ix2 y⟩
  show V m c main_arg4 (((cfg0.win 4).blk t).view.emb (ix2 p q)) = V m c main_arg4 (ix2 p q)
  refine congrArg (V m c main_arg4) (funext fun a => Fin.ext ?_)
  match a with
  | ⟨0, _⟩ => show win0_4.index t (0 : Fin 2) * 1 + 1 * p.val = p.val; rw [e0]; omega
  | ⟨1, _⟩ => show win0_4.index t (1 : Fin 2) * 512 + 1 * q.val = q.val; rw [e1]; omega

theorem iblk5_eq (c : Dev nD) (t : Fin cfg0.N) : (iblk m c 5 t : FVec Ideal S512x128 .f32) = V m c main_v1 := by
  obtain ⟨e0, e1⟩ := idx5 t
  funext y
  obtain ⟨p, q, rfl⟩ : ∃ (p : Fin 512) (q : Fin 128), y = ix2 p q := ⟨y 0, y 1, eq_ix2 y⟩
  show V m c main_v1 (((cfg0.win 5).blk t).view.emb (ix2 p q)) = V m c main_v1 (ix2 p q)
  refine congrArg (V m c main_v1) (funext fun a => Fin.ext ?_)
  match a with
  | ⟨0, _⟩ => show win0_5.index t (0 : Fin 2) * 512 + 1 * p.val = p.val; rw [e0]; omega
  | ⟨1, _⟩ => show win0_5.index t (1 : Fin 2) * 128 + 1 * q.val = q.val; rw [e1]; omega

theorem iblk6_eq (c : Dev nD) (t : Fin cfg0.N) : (iblk m c 6 t : FVec Ideal S1x128 .f32) = V m c main_v3 := by
  obtain ⟨e0, e1⟩ := idx6 t
  funext y
  obtain ⟨p, q, rfl⟩ : ∃ (p : Fin 1) (q : Fin 128), y = ix2 p q := ⟨y 0, y 1, eq_ix2 y⟩
  show V m c main_v3 (((cfg0.win 6).blk t).view.emb (ix2 p q)) = V m c main_v3 (ix2 p q)
  refine congrArg (V m c main_v3) (funext fun a => Fin.ext ?_)
  match a with
  | ⟨0, _⟩ => show win0_6.index t (0 : Fin 2) * 1 + 1 * p.val = p.val; rw [e0]; omega
  | ⟨1, _⟩ => show win0_6.index t (1 : Fin 2) * 128 + 1 * q.val = q.val; rw [e1]; omega

end Cert.KernelIdeal.Blocks

end
-- ==== Proof.KInv.lean ====
/-
  What the kernel's buffers hold after every grid point.

  Let `A` be arrays the windows' blocks are read from: the window of initial states at point `t` is rows
  `128 (t / 64) …` of `A.x0`, the window of controls is times `8 (t % 64) …` of those rows of `A.u`, and the five
  parameter windows are `A`'s parameters. By induction on the point, after point `t` the carried tile holds, at row `r`,
  batch row `128 (t / 64) + r`'s state after `8 (t % 64) + 8` steps, and the output block holds at `(j, r, ·)` that
  batch row's state after `8 (t % 64) + j + 1` steps: a chunk's eight steps continue the steps of the chunks before it,
  and the first chunk of a tile starts from the initial states.
-/
import proofs.«121607_g2000605949469319_pallasbulk_662_2_alg».proof.Proof.KBlocks

noncomputable section

namespace Cert.KernelIdeal.Inv

open Cert.KernelIdeal Cert.KernelIdeal.Gen Cert.KernelIdeal.Step Cert.KernelIdeal.Chunk Cert.KernelIdeal.Case Cert.KernelIdeal.Blocks
open Idealize.ShloMosaic Idealize.ShloMosaic.ValueIdx Idealize.ShloMosaic.TcCoe Idealize.SL.Sem Cert.Rollout

/-! ## One point continues the steps before it -/

/-- The controls of row `r` of point `t`'s tile, step by step, are batch row `rowOf t r`'s controls from time
    `8 (t % 64)` on. -/
theorem ucK_eq (A : Args) (t : Fin cfg0.N) (ublk : FVec Ideal S8x128x128 .f32)
    (h1 : ∀ (j : Fin 8) (r a : Fin 128), ublk (ix3 j r a) = A.u (ix3 (timeOf t j) (rowOf t r) a))
    (r : Fin 128) (i : ℕ) (hi : i < 8) :
    ucK ublk r i = ctrl A.u (rowOf t r) (8 * (t.val % 64) + i) := by
  have hlt : 8 * (t.val % 64) + i < 512 := by have := lt_N t; omega
  funext a
  unfold ucK ctrl
  rw [dif_pos hi, dif_pos hlt]
  exact h1 ⟨i, hi⟩ r a

/-- From a tile that holds the states after `8 (t % 64)` steps, `n ≤ 8` steps of the point are the states after
    `8 (t % 64) + n` steps. -/
theorem row_eq (A : Args) (t : Fin cfg0.N) (ublk : FVec Ideal S8x128x128 .f32)
    (h1 : ∀ (j : Fin 8) (r a : Fin 128), ublk (ix3 j r a) = A.u (ix3 (timeOf t j) (rowOf t r) a))
    (xin : FVec Ideal S128x128 .f32)
    (hxin : ∀ r k : Fin 128, xin (ix2 r k) = state A (rowOf t r) (8 * (t.val % 64)) k)
    (r : Fin 128) (n : ℕ) (hn : n ≤ 8) :
    steps A.w1x A.w1u A.b1 A.w2 A.b2 (fun a => xin (ix2 r a)) (ucK ublk r) n
      = state A (rowOf t r) (8 * (t.val % 64) + n) := by
  have e : (fun a => xin (ix2 r a)) = state A (rowOf t r) (8 * (t.val % 64)) := funext fun a => hxin r a
  rw [e]
  unfold state
  rw [steps_add]
  exact steps_congr _ _ _ _ _ _ _ _ n (fun i hi => ucK_eq A t ublk h1 r i (by omega))

/-- So the block and the tile the point leaves are the states its rows reach. -/
theorem point_eq (A : Args) (t : Fin cfg0.N) (ublk : FVec Ideal S8x128x128 .f32)
    (h1 : ∀ (j : Fin 8) (r a : Fin 128), ublk (ix3 j r a) = A.u (ix3 (timeOf t j) (rowOf t r) a))
    (xin : FVec Ideal S128x128 .f32)
    (hxin : ∀ r k : Fin 128, xin (ix2 r k) = state A (rowOf t r) (8 * (t.val % 64)) k) :
    blockG xin ublk A.w1u A.w1x A.b1 A.w2 A.b2
        = (fun y => state A (rowOf t (y 1)) (8 * (t.val % 64) + ((y 0).val + 1)) (y 2))
      ∧ tileG xin ublk A.w1u A.w1x A.b1 A.w2 A.b2
        = (fun y => state A (rowOf t (y 0)) (8 * (t.val % 64) + 8) (y 1)) := by
  refine ⟨funext fun y => ?_, funext fun y => ?_⟩
  · unfold blockG
    rw [row_eq A t ublk h1 xin hxin (y 1) ((y 0).val + 1) (by have : (y 0).val < 8 := (y 0).isLt; omega)]
  · unfold tileG
    rw [row_eq A t ublk h1 xin hxin (y 0) 8 (le_refl 8)]

/-! ## The induction over the points -/

variable (m : (ℓ : Loc nD τ sig) → Buf (Elt Ideal) ℓ)

set_option maxHeartbeats 4000000 in
/-- At the first chunk of a tile the point runs from the window of initial states. -/
theorem pointA (c : Dev nD) (A : Args)
    (h2 : ∀ t : Fin cfg0.N, (iblk m c 2 t : FVec Ideal S128x512 .f32) = A.w1x)
    (h3 : ∀ t : Fin cfg0.N, (iblk m c 3 t : FVec Ideal S128x512 .f32) = A.w1u)
    (h4 : ∀ t : Fin cfg0.N, (iblk m c 4 t : FVec Ideal S1x512 .f32) = A.b1)
    (h5 : ∀ t : Fin cfg0.N, (iblk m c 5 t : FVec Ideal S512x128 .f32) = A.w2)
    (h6 : ∀ t : Fin cfg0.N, (iblk m c 6 t : FVec Ideal S1x128 .f32) = A.b2)
    (t : Fin cfg0.N) (h0 : t.val % 64 = 0) :
    outsAt0 m c t.val t.isLt
      = (blockG (iblk m c 0 t) (iblk m c 1 t) A.w1u A.w1x A.b1 A.w2 A.b2,
         tileG (iblk m c 0 t) (iblk m c 1 t) A.w1u A.w1x A.b1 A.w2 A.b2) := by
  rw [outsAt0_A m c t h0, out_A, tile_A, h2 t, h3 t, h4 t, h5 t, h6 t]

set_option maxHeartbeats 4000000 in
/-- At a later chunk the point runs from the carried tile the point before left. -/
theorem pointB (c : Dev nD) (A : Args)
    (h2 : ∀ t : Fin cfg0.N, (iblk m c 2 t : FVec Ideal S128x512 .f32) = A.w1x)
    (h3 : ∀ t : Fin cfg0.N, (iblk m c 3 t : FVec Ideal S128x512 .f32) = A.w1u)
    (h4 : ∀ t : Fin cfg0.N, (iblk m c 4 t : FVec Ideal S1x512 .f32) = A.b1)
    (h5 : ∀ t : Fin cfg0.N, (iblk m c 5 t : FVec Ideal S512x128 .f32) = A.w2)
    (h6 : ∀ t : Fin cfg0.N, (iblk m c 6 t : FVec Ideal S1x128 .f32) = A.b2)
    (t : Fin cfg0.N) (h0 : ¬t.val % 64 = 0) :
    outsAt0 m c t.val t.isLt
      = (blockG ((outsAt0 m c (t.val - 1) (Nat.lt_of_le_of_lt (Nat.sub_le _ _) t.isLt)).2) (iblk m c 1 t) A.w1u A.w1x A.b1 A.w2 A.b2,
         tileG ((outsAt0 m c (t.val - 1) (Nat.lt_of_le_of_lt (Nat.sub_le _ _) t.isLt)).2) (iblk m c 1 t) A.w1u A.w1x A.b1 A.w2 A.b2) := by
  rw [outsAt0_B m c t h0, out_B, tile_B, h2 t, h3 t, h4 t, h5 t, h6 t]

theorem outsAt_eq (c : Dev nD) (A : Args)
    (hx0 : ∀ (t : Fin cfg0.N) (r k : Fin 128), (iblk m c 0 t : FVec Ideal S128x128 .f32) (ix2 r k) = A.x0 (ix2 (rowOf t r) k))
    (hu : ∀ (t : Fin cfg0.N) (j : Fin 8) (r a : Fin 128), (iblk m c 1 t : FVec Ideal S8x128x128 .f32) (ix3 j r a) = A.u (ix3 (timeOf t j) (rowOf t r) a))
    (h2 : ∀ t : Fin cfg0.N, (iblk m c 2 t : FVec Ideal S128x512 .f32) = A.w1x)
    (h3 : ∀ t : Fin cfg0.N, (iblk m c 3 t : FVec Ideal S128x512 .f32) = A.w1u)
    (h4 : ∀ t : Fin cfg0.N, (iblk m c 4 t : FVec Ideal S1x512 .f32) = A.b1)
    (h5 : ∀ t : Fin cfg0.N, (iblk m c 5 t : FVec Ideal S512x128 .f32) = A.w2)
    (h6 : ∀ t : Fin cfg0.N, (iblk m c 6 t : FVec Ideal S1x128 .f32) = A.b2) :
    ∀ (n : ℕ) (hn : n < cfg0.N),
    (outsAt0 m c n hn).1 = (fun y => state A (rowOf ⟨n, hn⟩ (y 1)) (8 * (n % 64) + ((y 0).val + 1)) (y 2))
      ∧ (outsAt0 m c n hn).2 = (fun y => state A (rowOf ⟨n, hn⟩ (y 0)) (8 * (n % 64) + 8) (y 1)) := by
  intro n
  induction n using Nat.strong_induction_on with
  | _ n ih =>
    intro hn
    have hN := lt_N ⟨n, hn⟩
    by_cases h0 : n % 64 = 0
    · have hA := pointA m c A h2 h3 h4 h5 h6 ⟨n, hn⟩ h0
      have hp := point_eq A ⟨n, hn⟩ (iblk m c 1 ⟨n, hn⟩) (hu ⟨n, hn⟩) (iblk m c 0 ⟨n, hn⟩) (fun r k => by
        rw [hx0]
        show _ = state A (rowOf ⟨n, hn⟩ r) (8 * (n % 64)) k
        rw [h0]
        rfl)
      exact ⟨(congrArg Prod.fst hA).trans hp.1, (congrArg Prod.snd hA).trans hp.2⟩
    · have hB := pointB m c A h2 h3 h4 h5 h6 ⟨n, hn⟩ h0
      have hlt : n - 1 < cfg0.N := Nat.lt_of_le_of_lt (Nat.sub_le _ _) hn
      have hp := point_eq A ⟨n, hn⟩ (iblk m c 1 ⟨n, hn⟩) (hu ⟨n, hn⟩) ((outsAt0 m c (n - 1) hlt).2) (fun r k => by
        rw [(ih (n - 1) (by omega) hlt).2]
        show state A (rowOf ⟨n - 1, hlt⟩ r) (8 * ((n - 1) % 64) + 8) k = state A (rowOf ⟨n, hn⟩ r) (8 * (n % 64)) k
        have e1 : rowOf ⟨n - 1, hlt⟩ r = rowOf ⟨n, hn⟩ r := Fin.ext (by
          show 128 * ((n - 1) / 64) + r.val = 128 * (n / 64) + r.val
          omega)
        have e2 : 8 * ((n - 1) % 64) + 8 = 8 * (n % 64) := by omega
        rw [e1, e2])
      exact ⟨(congrArg Prod.fst hB).trans hp.1, (congrArg Prod.snd hB).trans hp.2⟩

/-- The same, the seven arrays given one by one. -/
theorem outsAt_eq_arrays (c : Dev nD) (X0 : Mat 256 128) (U : Ten 512 256 128) (W1x W1u : Mat 128 512) (B1 : Mat 1 512)
    (W2 : Mat 512 128) (B2 : Mat 1 128)
    (hx0 : ∀ (t : Fin cfg0.N) (r k : Fin 128), (iblk m c 0 t : FVec Ideal S128x128 .f32) (ix2 r k) = X0 (ix2 (rowOf t r) k))
    (hu : ∀ (t : Fin cfg0.N) (j : Fin 8) (r a : Fin 128), (iblk m c 1 t : FVec Ideal S8x128x128 .f32) (ix3 j r a) = U (ix3 (timeOf t j) (rowOf t r) a))
    (h2 : ∀ t : Fin cfg0.N, (iblk m c 2 t : FVec Ideal S128x512 .f32) = W1x)
    (h3 : ∀ t : Fin cfg0.N, (iblk m c 3 t : FVec Ideal S128x512 .f32) = W1u)
    (h4 : ∀ t : Fin cfg0.N, (iblk m c 4 t : FVec Ideal S1x512 .f32) = B1)
    (h5 : ∀ t : Fin cfg0.N, (iblk m c 5 t : FVec Ideal S512x128 .f32) = W2)
    (h6 : ∀ t : Fin cfg0.N, (iblk m c 6 t : FVec Ideal S1x128 .f32) = B2) :
    ∀ (n : ℕ) (hn : n < cfg0.N),
    (outsAt0 m c n hn).1 = (fun y => state ⟨X0, U, W1x, W1u, B1, W2, B2⟩ (rowOf ⟨n, hn⟩ (y 1)) (8 * (n % 64) + ((y 0).val + 1)) (y 2))
      ∧ (outsAt0 m c n hn).2 = (fun y => state ⟨X0, U, W1x, W1u, B1, W2, B2⟩ (rowOf ⟨n, hn⟩ (y 0)) (8 * (n % 64) + 8) (y 1)) :=
  outsAt_eq m c ⟨X0, U, W1x, W1u, B1, W2, B2⟩ hx0 hu h2 h3 h4 h5 h6

end Cert.KernelIdeal.Inv

end
-- ==== Proof.KFinal.lean ====
/-
  The kernel's result array is the rollout of the arrays the region finds.

  What point `t` writes back is block `t` of the rollout (times `8 (t % 64) …`, batch rows `128 (t / 64) …`); the blocks
  cover the array, the point for `(n, p, ·)` being `64 (p / 128) + n / 8`; so after the run the result array is the
  rollout. -/
import proofs.«121607_g2000605949469319_pallasbulk_662_2_alg».proof.Proof.KInv

noncomputable section

namespace Cert.KernelIdeal.Final

open Cert.KernelIdeal Cert.KernelIdeal.Gen Cert.KernelIdeal.Blocks Cert.KernelIdeal.Inv
open Idealize.ShloMosaic Idealize.ShloMosaic.ValueIdx Idealize.ShloMosaic.TcCoe Idealize.SL.Sem Cert.Rollout
open Idealize.ShloMosaic.Pipeline (Dat)

variable (m : (ℓ : Loc nD τ sig) → Buf (Elt Ideal) ℓ) (ρ : Dev nD → PrngReg)

/-- The arrays the rollout is a function of, as the region finds them. -/
def args (c : Dev nD) : Args :=
  ⟨arrX0 m c, arrU m c, V m c main_arg2, V m c main_arg3, V m c main_arg4, V m c main_v1, V m c main_v3⟩

theorem outs_eq (c : Dev nD) (t : Fin cfg0.N) :
    (outsAt0 m c t.val t.isLt).1
      = fun y => state (args m c) (rowOf t (y 1)) (8 * (t.val % 64) + ((y 0).val + 1)) (y 2) :=
  (outsAt_eq_arrays m c (arrX0 m c) (arrU m c) (V m c main_arg2) (V m c main_arg3) (V m c main_arg4) (V m c main_v1)
    (V m c main_v3) (iblk0_apply m c) (iblk1_apply m c) (iblk2_eq m c) (iblk3_eq m c) (iblk4_eq m c)
    (iblk5_eq m c) (iblk6_eq m c) t.val t.isLt).1

/-- What point `t` writes back is block `t` of the rollout. -/
theorem flushed_eq (c : Dev nD) (t : Fin cfg0.N) :
    (dats m 0 c).flushed 7 t = ((cfg0.win 7).blk t).view.read (Elt Ideal) (G (args m c)) := by
  rw [Cert.KernelIdeal.Value.flushed7 m c t, outs_eq m c t]
  funext y
  obtain ⟨j, r, k, rfl⟩ : ∃ (j : Fin 8) (r k : Fin 128), y = ix3 j r k := ⟨y 0, y 1, y 2, eq_ix3 y⟩
  rw [read7 t (G (args m c)) j r k]
  have e : 8 * (t.val % 64) + (j.val + 1) = (timeOf t j).val + 1 := by
    show _ = 8 * (t.val % 64) + j.val + 1
    omega
  show state (args m c) (rowOf t r) (8 * (t.val % 64) + (j.val + 1)) k = state (args m c) (rowOf t r) ((timeOf t j).val + 1) k
  rw [e]

/-- An index of the result array is in point `t`'s block iff each coordinate is in the block's range on its axis. -/
theorem mem_blk (t : Fin cfg0.N) (i : S512x256x128.Idx) :
    i ∈ ((cfg0.win 7).blk t).view.set ↔ ∀ a : Fin 3, win0_7.index t a * S8x128x128.size a ≤ (i a).val
      ∧ (i a).val < win0_7.index t a * S8x128x128.size a + S8x128x128.size a := by
  show i ∈ ((View.whole main_v8).slice (win0_7.rect t)).set ↔ _
  rw [View.set_slice_whole, Rect.mem_set_unit]
  exact Iff.rfl

/-- The point whose block holds `(n, p, ·)`. -/
def pointOf (i : S512x256x128.Idx) : Fin cfg0.N :=
  ⟨64 * ((i 1).val / 128) + (i 0).val / 8, by
    have h0 : (i 0).val < 512 := (i 0).isLt
    have h1 : (i 1).val < 256 := (i 1).isLt
    rw [show cfg0.N = 128 from N_0]; omega⟩

/-- Every index is in some point's block. -/
theorem cover (i : S512x256x128.Idx) :
    ∃ t : Fin cfg0.N, (cfg0.win 7).flush t = true ∧ i ∈ ((cfg0.win 7).blk t).view.set := by
  have h0 : (i 0).val < 512 := (i 0).isLt
  have h1 : (i 1).val < 256 := (i 1).isLt
  have h2 : (i 2).val < 128 := (i 2).isLt
  have hv : (pointOf i).val = 64 * ((i 1).val / 128) + (i 0).val / 8 := rfl
  obtain ⟨e0, e1, e2⟩ := idx7 (pointOf i)
  refine ⟨pointOf i, flush0_7 _, ?_⟩
  rw [mem_blk]
  intro a
  match a with
  | ⟨0, _⟩ =>
    show win0_7.index (pointOf i) (0 : Fin 3) * 8 ≤ (i 0).val ∧ (i 0).val < win0_7.index (pointOf i) (0 : Fin 3) * 8 + 8
    rw [e0, hv]; omega
  | ⟨1, _⟩ =>
    show win0_7.index (pointOf i) (1 : Fin 3) * 128 ≤ (i 1).val ∧ (i 1).val < win0_7.index (pointOf i) (1 : Fin 3) * 128 + 128
    rw [e1, hv]; omega
  | ⟨2, _⟩ =>
    show win0_7.index (pointOf i) (2 : Fin 3) * 128 ≤ (i 2).val ∧ (i 2).val < win0_7.index (pointOf i) (2 : Fin 3) * 128 + 128
    rw [e2]; omega

/-- So the result array ends at the rollout. -/
theorem final (c : Dev nD) : (dats m 0 c).arrAt 7 cfg0.N = G (args m c) :=
  (dats m 0 c).arrAt_eq_of_cover 7 (G (args m c)) (fun t _ => flushed_eq m c t) cover

/-- The run, read: the result array at the rollout, the arguments unchanged. -/
theorem run : θ_run defs (onTc (τ := τ) (main (F := Ideal))) ⟨m, fun _ => 0, ρ⟩ fun r => ∀ c : Dev nD,
      r.2.mem ((c : Thread nD τ).loc main_v8) = G (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Final

end
-- ==== Proof.KHost.lean ====
/-
  The arrays the kernel's region finds are the host's: the initial states and the controls written over zeros of their
  own shapes, the three parameters passed through, and the last layer's two parameters multiplied by the step size.
-/
import proofs.«121607_g2000605949469319_pallasbulk_662_2_alg».proof.Proof.KFinal
import Idealize.ShloMosaic.Lib.StableHlo.Run

noncomputable section

namespace Cert.KernelIdeal.Final

open Cert.KernelIdeal Cert.KernelIdeal.Gen Cert.KernelIdeal.Blocks Cert.KernelIdeal.Inv
open Idealize.ShloMosaic Idealize.ShloMosaic.ValueIdx Idealize.ShloMosaic.TcCoe Idealize.SL.Sem Cert.Rollout

variable (m : (ℓ : Loc nD τ sig) → Buf (Elt Ideal) ℓ)

/-- The host's operations before the call, one result each. -/
def hostX0 (a0 : Mat 256 128) : Mat 256 128 :=
  Host.scatter scatter_S256x128_S0_S256x128_01_n_n_0 (fun _ b => b)
    (broadcastInDim S256x128 ![] bcast_S_S256x128 (constant (F := Ideal) S_ .f32 0x00000000#32))
    (emptyVec S0 hz_S0 : (⟨S0, .i32⟩ : BufTy).Contents (Elt Ideal)) a0
def hostU (a1 : Ten 512 256 128) : Ten 512 256 128 :=
  Host.scatter scatter_S512x256x128_S0_S512x256x128_012_n_n_0 (fun _ b => b)
    (broadcastInDim S512x256x128 ![] bcast_S_S512x256x128 (constant (F := Ideal) S_ .f32 0x00000000#32))
    (emptyVec S0 hz_S0 : (⟨S0, .i32⟩ : BufTy).Contents (Elt Ideal)) a1
def hostW2 (a5 : Mat 512 128) (a7 : S_.Idx → EReal) : Mat 512 128 :=
  mulf (F := Ideal) (φ := .f32) a5 (broadcastInDim S512x128 ![] bcast_S_S512x128 a7)
def hostB2 (a6 : Mat 1 128) (a7 : S_.Idx → EReal) : Mat 1 128 :=
  mulf (F := Ideal) (φ := .f32) a6 (broadcastInDim S1x128 ![] bcast_S_S1x128 a7)

/-- The rollout's arrays, of the argument arrays. -/
def hostArgs (a0 : Mat 256 128) (a1 : Ten 512 256 128) (a2 a3 : Mat 128 512) (a4 : Mat 1 512) (a5 : Mat 512 128)
    (a6 : Mat 1 128) (a7 : S_.Idx → EReal) : Args :=
  ⟨hostX0 a0, hostU a1, a2, a3, a4, hostW2 a5 a7, hostB2 a6 a7⟩

theorem arrX0_eq (c : Dev nD) : arrX0 m c = hostX0 (m ((c : Thread nD τ).loc main_arg0)) := by
  unfold arrX0 hostX0; dsimp only [Gen.V, Gen.hostOps0]; after_results
theorem arrU_eq (c : Dev nD) : arrU m c = hostU (m ((c : Thread nD τ).loc main_arg1)) := by
  unfold arrU hostU; dsimp only [Gen.V, Gen.hostOps0]; after_results
theorem w2_eq (c : Dev nD) : (V m c main_v1 : Mat 512 128) = hostW2 (m ((c : Thread nD τ).loc main_arg5)) (m ((c : Thread nD τ).loc main_arg7)) := by
  unfold hostW2; dsimp only [Gen.V, Gen.hostOps0]; after_results
theorem b2_eq (c : Dev nD) : (V m c main_v3 : Mat 1 128) = hostB2 (m ((c : Thread nD τ).loc main_arg6)) (m ((c : Thread nD τ).loc main_arg7)) := by
  unfold hostB2; dsimp only [Gen.V, Gen.hostOps0]; after_results

theorem args_eq (c : Dev nD) : args m c = hostArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e2 : (V m c main_arg2 : Mat 128 512) = (m ((c : Thread nD τ).loc main_arg2)) := V_main_arg2 m c
  have e3 : (V m c main_arg3 : Mat 128 512) = (m ((c : Thread nD τ).loc main_arg3)) := V_main_arg3 m c
  have e4 : (V m c main_arg4 : Mat 1 512) = (m ((c : Thread nD τ).loc main_arg4)) := V_main_arg4 m c
  unfold args hostArgs
  rw [arrX0_eq, arrU_eq, e2, e3, e4, w2_eq, b2_eq]

end Cert.KernelIdeal.Final

end
-- ==== Proof.RStep.lean ====
/-
  One grid point of the reference, row by row.

  The reference's body holds a state tile of 8 batch rows and the controls of 8 consecutive times for those rows. It
  projects the 64 control rows at once (time `j`, row `r` at row `8 j + r` of the flattened block), spreads `b2` over
  the tile once, and steps the tile eight times, step `j` reading rows `8 j … 8 j + 7` of the projection. Read at an
  entry, the product of an 8-row tile with a weight matrix is the product of that one row.
-/
import proofs.«121607_g2000605949469319_pallasbulk_662_2_alg».proof.Proof.Gen.ReferenceIdeal.Skeleton
import proofs.«121607_g2000605949469319_pallasbulk_662_2_alg».proof.Proof.Spec
import proofs.«121607_g2000605949469319_pallasbulk_662_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Step

open Cert.ReferenceIdeal Cert.ReferenceIdeal.Gen Idealize.ShloMosaic Idealize.ShloMosaic.ValueIdx Cert.Rollout

/-- One step of the whole tile, as the body spells it: `x + tanh (x · W1x + up) · W2 + b2`, `b2t` being `b2` spread down
    the rows. -/
def stepV (w1x : FVec Ideal S128x512 .f32) (w2 : FVec Ideal S512x128 .f32) (b2t : FVec Ideal S8x128 .f32)
    (x : FVec Ideal S8x128 .f32) (up : FVec Ideal S8x512 .f32) : FVec Ideal S8x128 .f32 :=
  addf (addf x (matmul dot_S8x512_S512x128_S8x128_1_0_0_1_n_n none
    (tanh (addf (matmul dot_S8x128_S128x512_S8x512_1_0_0_1_n_n none x w1x (constant S8x512 .f32 0x00000000#32)) up))
    w2 (constant S8x128 .f32 0x00000000#32))) b2t

/-- Row `r` of the stepped tile is the step of row `r`. -/
theorem stepV_apply (w1x : FVec Ideal S128x512 .f32) (w2 : FVec Ideal S512x128 .f32) (b2t : FVec Ideal S8x128 .f32)
    (b2 : FVec Ideal S1x128 .f32) (hb : ∀ (r : Fin 8) (k : Fin 128), b2t (ix2 r k) = b2 (ix2 0 k))
    (x : FVec Ideal S8x128 .f32) (up : FVec Ideal S8x512 .f32) (r : Fin 8) (k : Fin 128) :
    stepV w1x w2 b2t x up (ix2 r k) = rowStep w1x w2 b2 (fun a => x (ix2 r a)) (fun h => up (ix2 r h)) k := by
  have h1 : ∀ h : Fin 512, matmul dot_S8x128_S128x512_S8x512_1_0_0_1_n_n none x w1x (constant S8x512 .f32 0x00000000#32) (ix2 r h)
      = ∑ a : Fin 128, x (ix2 r a) * w1x (ix2 a h) :=
    fun h => Cert.Lib.PlainDot.matmul_zero_apply (M := 8) (K := 128) (N := 512) none x w1x r h
  have h2 : matmul dot_S8x512_S512x128_S8x128_1_0_0_1_n_n none
      (tanh (addf (matmul dot_S8x128_S128x512_S8x512_1_0_0_1_n_n none x w1x (constant S8x512 .f32 0x00000000#32)) up))
      w2 (constant S8x128 .f32 0x00000000#32) (ix2 r k)
      = ∑ h : Fin 512, (tanh (addf (matmul dot_S8x128_S128x512_S8x512_1_0_0_1_n_n none x w1x (constant S8x512 .f32 0x00000000#32)) up)) (ix2 r h) * w2 (ix2 h k) :=
    Cert.Lib.PlainDot.matmul_zero_apply (M := 8) (K := 512) (N := 128) none _ w2 r k
  unfold stepV rowStep
  rw [addf_apply, addf_apply, h2, hb r k]
  refine congrArg (fun z => x (ix2 r k) + z + b2 (ix2 0 k)) (Finset.sum_congr rfl fun h _ => ?_)
  show Ideal.tanh (matmul dot_S8x128_S128x512_S8x512_1_0_0_1_n_n none x w1x (constant S8x512 .f32 0x00000000#32) (ix2 r h) + up (ix2 r h)) * w2 (ix2 h k) = _
  rw [h1]

/-- `b2` spread over the tile reads `b2`'s own entry in every row. -/
theorem pay6_apply (v14 : FVec Ideal S1x128 .f32) (r : Fin 8) (k : Fin 128) :
    k0_pay6 (F := Ideal) v14 (ix2 r k) = v14 (ix2 0 k) := by
  unfold k0_pay6
  simp only [shapeCast_self]
  exact broadcastTo_apply v14 _ (ix2 r k) (ix2 0 k) (fun a => by
    match a with
    | ⟨0, _⟩ => rfl
    | ⟨1, _⟩ => rfl)

/-- The projection of the chunk's controls, at row `8 j + r`: the projected control of time `j`, row `r`. -/
theorem pay4_apply (v3 : FVec Ideal S8x8x128 .f32) (v6 : FVec Ideal S128x512 .f32) (v8 : FVec Ideal S1x512 .f32)
    (j : Fin 8) (r : Fin 8) (h : Fin 512) (q : Fin 64) (hq : q.val = 8 * j.val + r.val) :
    k0_pay4 (F := Ideal) v3 v6 v8 (ix2 q h) = proj v6 v8 (fun a => v3 (ix3 j r a)) h := by
  have hc : ∀ a : Fin 128, shapeCast S64x128 (shapeCast S8x8x128 v3 shapeCasts_S8x8x128_S8x8x128) shapeCasts_S8x8x128_S64x128 (ix2 q a)
      = v3 (ix3 j r a) := fun a => by
    rw [shapeCast_self]
    refine shapeCast_apply _ _ _ _ ?_
    rw [Shape.rowMajor_val_three, Shape.rowMajor_val_two]
    show (j.val * 8 + r.val) * 128 + a.val = q.val * 128 + a.val
    rw [hq]; ring
  have hm : matmul dot_S64x128_S128x512_S64x512_1_0_0_1_n_n none
      (shapeCast S64x128 (shapeCast S8x8x128 v3 shapeCasts_S8x8x128_S8x8x128) shapeCasts_S8x8x128_S64x128) v6
      (constant S64x512 .f32 0x00000000#32) (ix2 q h)
      = ∑ a : Fin 128, (shapeCast S64x128 (shapeCast S8x8x128 v3 shapeCasts_S8x8x128_S8x8x128) shapeCasts_S8x8x128_S64x128) (ix2 q a) * v6 (ix2 a h) :=
    Cert.Lib.PlainDot.matmul_zero_apply (M := 64) (K := 128) (N := 512) none _ v6 q h
  have hb : broadcastTo S64x512 v8 broadcasts_S1x512_S64x512 (ix2 q h) = v8 (ix2 0 h) :=
    broadcastTo_apply v8 _ (ix2 q h) (ix2 0 h) (fun a => by
      match a with
      | ⟨0, _⟩ => rfl
      | ⟨1, _⟩ => rfl)
  unfold k0_pay4 proj
  dsimp only
  rw [addf_apply, hm, hb]
  simp only [hc]

/-- The rows of the projection that step `j` reads, at row `r`: the projected control of time `j`, row `r`. -/
theorem up_apply (v3 : FVec Ideal S8x8x128 .f32) (v6 : FVec Ideal S128x512 .f32) (v8 : FVec Ideal S1x512 .f32)
    (o : Nat) (hs : S64x512.Slices ![o, 0] S8x512) (j : Fin 8) (ho : o = 8 * j.val) (r : Fin 8) (h : Fin 512) :
    extractStridedSlice S8x512 ![o, 0] (k0_pay4 (F := Ideal) v3 v6 v8) hs (ix2 r h) = proj v6 v8 (fun a => v3 (ix3 j r a)) h :=
  (slice2_axis0_apply o (k0_pay4 (F := Ideal) v3 v6 v8) hs r h ⟨o + r.val, by have := j.isLt; have := r.isLt; omega⟩ rfl).trans
    (pay4_apply v3 v6 v8 j r h _ (by show o + r.val = _; rw [ho]))

/-- The controls of row `r` of the tile, time by time within the chunk. -/
def ucR (v3 : FVec Ideal S8x8x128 .f32) (r : Fin 8) : ℕ → Fin 128 → EReal :=
  fun j a => if h : j < 8 then v3 (ix3 ⟨j, h⟩ r a) else 0

/-- If a tile holds, row by row, the states after `j` steps, the stepped tile holds the states after `j + 1`. -/
theorem stepV_steps (v3 : FVec Ideal S8x8x128 .f32) (v6 v11 : FVec Ideal S128x512 .f32) (v8 : FVec Ideal S1x512 .f32)
    (v12 : FVec Ideal S512x128 .f32) (v14 : FVec Ideal S1x128 .f32) (x : FVec Ideal S8x128 .f32)
    (s : FVec Ideal S8x128 .f32) (j : Fin 8) (o : Nat) (hs : S64x512.Slices ![o, 0] S8x512) (ho : o = 8 * j.val)
    (hsj : ∀ (r : Fin 8) (k : Fin 128), s (ix2 r k) = steps v11 v6 v8 v12 v14 (fun a => x (ix2 r a)) (ucR v3 r) j.val k)
    (r : Fin 8) (k : Fin 128) :
    stepV v11 (k0_pay5 (F := Ideal) v12) (k0_pay6 (F := Ideal) v14) s
        (extractStridedSlice S8x512 ![o, 0] (k0_pay4 (F := Ideal) v3 v6 v8) hs) (ix2 r k)
      = steps v11 v6 v8 v12 v14 (fun a => x (ix2 r a)) (ucR v3 r) (j.val + 1) k := by
  rw [stepV_apply v11 (k0_pay5 (F := Ideal) v12) (k0_pay6 (F := Ideal) v14) v14 (pay6_apply v14)]
  have e5 : k0_pay5 (F := Ideal) v12 = v12 := shapeCast_self _ _
  have es : (fun a => s (ix2 r a)) = steps v11 v6 v8 v12 v14 (fun a => x (ix2 r a)) (ucR v3 r) j.val := funext fun a => hsj r a
  have eu : (fun h => extractStridedSlice S8x512 ![o, 0] (k0_pay4 (F := Ideal) v3 v6 v8) hs (ix2 r h)) = proj v6 v8 (ucR v3 r j.val) :=
    funext fun h => (up_apply v3 v6 v8 o hs j ho r h).trans (by
      unfold ucR
      simp only [dif_pos j.isLt, Fin.eta])
  rw [e5, es, eu]
  rfl

end Cert.ReferenceIdeal.Step

end
-- ==== Proof.RChunk.lean ====
/-
  The eight states of one grid point of the reference.

  `S1 … S8` are the state tile after 1 … 8 steps of the chunk, as the body's own terms; each is the step of the one
  before on rows `8 j …` of the projected controls, so at row `r` each holds the state row `r` reaches after that many
  steps. The body stacks them along a new leading axis and stores the stack as the output block; the scratch ends at
  `S8`.
-/
import proofs.«121607_g2000605949469319_pallasbulk_662_2_alg».proof.Proof.RStep

noncomputable section

namespace Cert.ReferenceIdeal.Chunk

open Cert.ReferenceIdeal Cert.ReferenceIdeal.Gen Cert.ReferenceIdeal.Step Idealize.ShloMosaic Idealize.ShloMosaic.ValueIdx Cert.Rollout

def S1 (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : FVec Ideal S8x128 .f32 := k0_pay7 (F := Ideal) v3 v6 v8 v11 v12 v14 v18
def S2 (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : FVec Ideal S8x128 .f32 := k0_pay8 (F := Ideal) v3 v6 v8 v11 v12 v14 v18
def S3 (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : FVec Ideal S8x128 .f32 := k0_pay10 (F := Ideal) v11 (k0_pay5 (F := Ideal) v12) (k0_pay6 (F := Ideal) v14) (S2 v3 v6 v11 v8 v12 v14 v18) (k0_pay9 (F := Ideal) v3 v6 v8) (constant (F := Ideal) S8x512 .f32 0x00000000#32)
def S4 (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : FVec Ideal S8x128 .f32 := k0_pay11 (F := Ideal) (k0_pay4 (F := Ideal) v3 v6 v8) v11 (k0_pay5 (F := Ideal) v12) (k0_pay6 (F := Ideal) v14) (S2 v3 v6 v11 v8 v12 v14 v18) (k0_pay9 (F := Ideal) v3 v6 v8) (constant (F := Ideal) S8x512 .f32 0x00000000#32)
def S5 (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : FVec Ideal S8x128 .f32 := k0_pay12 (F := Ideal) (k0_pay4 (F := Ideal) v3 v6 v8) v11 (k0_pay5 (F := Ideal) v12) (k0_pay6 (F := Ideal) v14) (S2 v3 v6 v11 v8 v12 v14 v18) (k0_pay9 (F := Ideal) v3 v6 v8) (constant (F := Ideal) S8x512 .f32 0x00000000#32)
def S6 (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : FVec Ideal S8x128 .f32 := k0_pay13 (F := Ideal) (k0_pay4 (F := Ideal) v3 v6 v8) v11 (k0_pay5 (F := Ideal) v12) (k0_pay6 (F := Ideal) v14) (S2 v3 v6 v11 v8 v12 v14 v18) (k0_pay9 (F := Ideal) v3 v6 v8) (constant (F := Ideal) S8x512 .f32 0x00000000#32)
def S7 (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : FVec Ideal S8x128 .f32 := k0_pay14 (F := Ideal) (k0_pay4 (F := Ideal) v3 v6 v8) v11 (k0_pay5 (F := Ideal) v12) (k0_pay6 (F := Ideal) v14) (S2 v3 v6 v11 v8 v12 v14 v18) (k0_pay9 (F := Ideal) v3 v6 v8) (constant (F := Ideal) S8x512 .f32 0x00000000#32)
def S8 (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : FVec Ideal S8x128 .f32 := k0_pay15 (F := Ideal) (k0_pay4 (F := Ideal) v3 v6 v8) v11 (k0_pay5 (F := Ideal) v12) (k0_pay6 (F := Ideal) v14) (S2 v3 v6 v11 v8 v12 v14 v18) (k0_pay9 (F := Ideal) v3 v6 v8) (constant (F := Ideal) S8x512 .f32 0x00000000#32)

/-- Each state is the step of the one before (the first, of the tile the point starts from). -/
theorem S1_eq (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : S1 v3 v6 v11 v8 v12 v14 v18 = stepV v11 (k0_pay5 (F := Ideal) v12) (k0_pay6 (F := Ideal) v14) v18
    (extractStridedSlice S8x512 ![0, 0] (k0_pay4 (F := Ideal) v3 v6 v8) slices_S64x512_o0_0_S8x512) := rfl
theorem S2_eq (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : S2 v3 v6 v11 v8 v12 v14 v18 = stepV v11 (k0_pay5 (F := Ideal) v12) (k0_pay6 (F := Ideal) v14) (S1 v3 v6 v11 v8 v12 v14 v18)
    (extractStridedSlice S8x512 ![8, 0] (k0_pay4 (F := Ideal) v3 v6 v8) slices_S64x512_o8_0_S8x512) := rfl
theorem S3_eq (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : S3 v3 v6 v11 v8 v12 v14 v18 = stepV v11 (k0_pay5 (F := Ideal) v12) (k0_pay6 (F := Ideal) v14) (S2 v3 v6 v11 v8 v12 v14 v18)
    (extractStridedSlice S8x512 ![16, 0] (k0_pay4 (F := Ideal) v3 v6 v8) slices_S64x512_o16_0_S8x512) := rfl
theorem S4_eq (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : S4 v3 v6 v11 v8 v12 v14 v18 = stepV v11 (k0_pay5 (F := Ideal) v12) (k0_pay6 (F := Ideal) v14) (S3 v3 v6 v11 v8 v12 v14 v18)
    (extractStridedSlice S8x512 ![24, 0] (k0_pay4 (F := Ideal) v3 v6 v8) slices_S64x512_o24_0_S8x512) := rfl
theorem S5_eq (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : S5 v3 v6 v11 v8 v12 v14 v18 = stepV v11 (k0_pay5 (F := Ideal) v12) (k0_pay6 (F := Ideal) v14) (S4 v3 v6 v11 v8 v12 v14 v18)
    (extractStridedSlice S8x512 ![32, 0] (k0_pay4 (F := Ideal) v3 v6 v8) slices_S64x512_o32_0_S8x512) := rfl
theorem S6_eq (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : S6 v3 v6 v11 v8 v12 v14 v18 = stepV v11 (k0_pay5 (F := Ideal) v12) (k0_pay6 (F := Ideal) v14) (S5 v3 v6 v11 v8 v12 v14 v18)
    (extractStridedSlice S8x512 ![40, 0] (k0_pay4 (F := Ideal) v3 v6 v8) slices_S64x512_o40_0_S8x512) := rfl
theorem S7_eq (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : S7 v3 v6 v11 v8 v12 v14 v18 = stepV v11 (k0_pay5 (F := Ideal) v12) (k0_pay6 (F := Ideal) v14) (S6 v3 v6 v11 v8 v12 v14 v18)
    (extractStridedSlice S8x512 ![48, 0] (k0_pay4 (F := Ideal) v3 v6 v8) slices_S64x512_o48_0_S8x512) := rfl
theorem S8_eq (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) : S8 v3 v6 v11 v8 v12 v14 v18 = stepV v11 (k0_pay5 (F := Ideal) v12) (k0_pay6 (F := Ideal) v14) (S7 v3 v6 v11 v8 v12 v14 v18)
    (extractStridedSlice S8x512 ![56, 0] (k0_pay4 (F := Ideal) v3 v6 v8) slices_S64x512_o56_0_S8x512) := rfl

/-- Row `r` of the state after `j` steps is row `r`'s own state after `j` steps. -/
theorem S1_apply (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) (r : Fin 8) (k : Fin 128) :
    S1 v3 v6 v11 v8 v12 v14 v18 (ix2 r k) = steps v11 v6 v8 v12 v14 (fun a => v18 (ix2 r a)) (ucR v3 r) 1 k := by
  rw [S1_eq]
  exact stepV_steps v3 v6 v11 v8 v12 v14 v18 v18 0 0 _ rfl (fun _ _ => rfl) r k
theorem S2_apply (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) (r : Fin 8) (k : Fin 128) :
    S2 v3 v6 v11 v8 v12 v14 v18 (ix2 r k) = steps v11 v6 v8 v12 v14 (fun a => v18 (ix2 r a)) (ucR v3 r) 2 k := by
  rw [S2_eq]
  exact stepV_steps v3 v6 v11 v8 v12 v14 v18 (S1 v3 v6 v11 v8 v12 v14 v18) 1 8 _ rfl (S1_apply v3 v6 v11 v8 v12 v14 v18) r k
theorem S3_apply (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) (r : Fin 8) (k : Fin 128) :
    S3 v3 v6 v11 v8 v12 v14 v18 (ix2 r k) = steps v11 v6 v8 v12 v14 (fun a => v18 (ix2 r a)) (ucR v3 r) 3 k := by
  rw [S3_eq]
  exact stepV_steps v3 v6 v11 v8 v12 v14 v18 (S2 v3 v6 v11 v8 v12 v14 v18) 2 16 _ rfl (S2_apply v3 v6 v11 v8 v12 v14 v18) r k
theorem S4_apply (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) (r : Fin 8) (k : Fin 128) :
    S4 v3 v6 v11 v8 v12 v14 v18 (ix2 r k) = steps v11 v6 v8 v12 v14 (fun a => v18 (ix2 r a)) (ucR v3 r) 4 k := by
  rw [S4_eq]
  exact stepV_steps v3 v6 v11 v8 v12 v14 v18 (S3 v3 v6 v11 v8 v12 v14 v18) 3 24 _ rfl (S3_apply v3 v6 v11 v8 v12 v14 v18) r k
theorem S5_apply (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) (r : Fin 8) (k : Fin 128) :
    S5 v3 v6 v11 v8 v12 v14 v18 (ix2 r k) = steps v11 v6 v8 v12 v14 (fun a => v18 (ix2 r a)) (ucR v3 r) 5 k := by
  rw [S5_eq]
  exact stepV_steps v3 v6 v11 v8 v12 v14 v18 (S4 v3 v6 v11 v8 v12 v14 v18) 4 32 _ rfl (S4_apply v3 v6 v11 v8 v12 v14 v18) r k
theorem S6_apply (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) (r : Fin 8) (k : Fin 128) :
    S6 v3 v6 v11 v8 v12 v14 v18 (ix2 r k) = steps v11 v6 v8 v12 v14 (fun a => v18 (ix2 r a)) (ucR v3 r) 6 k := by
  rw [S6_eq]
  exact stepV_steps v3 v6 v11 v8 v12 v14 v18 (S5 v3 v6 v11 v8 v12 v14 v18) 5 40 _ rfl (S5_apply v3 v6 v11 v8 v12 v14 v18) r k
theorem S7_apply (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) (r : Fin 8) (k : Fin 128) :
    S7 v3 v6 v11 v8 v12 v14 v18 (ix2 r k) = steps v11 v6 v8 v12 v14 (fun a => v18 (ix2 r a)) (ucR v3 r) 7 k := by
  rw [S7_eq]
  exact stepV_steps v3 v6 v11 v8 v12 v14 v18 (S6 v3 v6 v11 v8 v12 v14 v18) 6 48 _ rfl (S6_apply v3 v6 v11 v8 v12 v14 v18) r k
theorem S8_apply (v3 : FVec Ideal S8x8x128 .f32) (v6 v11 : FVec Ideal S128x512 .f32) (v8 : FVec Ideal S1x512 .f32) (v12 : FVec Ideal S512x128 .f32) (v14 : FVec Ideal S1x128 .f32) (v18 : FVec Ideal S8x128 .f32) (r : Fin 8) (k : Fin 128) :
    S8 v3 v6 v11 v8 v12 v14 v18 (ix2 r k) = steps v11 v6 v8 v12 v14 (fun a => v18 (ix2 r a)) (ucR v3 r) 8 k := by
  rw [S8_eq]
  exact stepV_steps v3 v6 v11 v8 v12 v14 v18 (S7 v3 v6 v11 v8 v12 v14 v18) 7 56 _ rfl (S7_apply v3 v6 v11 v8 v12 v14 v18) r k

/-- What a point leaves in its output block, as one function of the block index: at `(j, r, k)`, entry `k` of row `r`'s
    state after `j + 1` steps from the tile `xin` the point starts from. -/
def blockG (xin : FVec Ideal S8x128 .f32) (v3 : FVec Ideal S8x8x128 .f32) (v6 v11 : FVec Ideal S128x512 .f32)
    (v8 : FVec Ideal S1x512 .f32) (v12 : FVec Ideal S512x128 .f32) (v14 : FVec Ideal S1x128 .f32) : FVec Ideal S8x8x128 .f32 :=
  fun y => steps v11 v6 v8 v12 v14 (fun a => xin (ix2 (y 1) a)) (ucR v3 (y 1)) ((y 0).val + 1) (y 2)

/-- What a point leaves in the carried state tile: every row after all eight steps. -/
def tileG (xin : FVec Ideal S8x128 .f32) (v3 : FVec Ideal S8x8x128 .f32) (v6 v11 : FVec Ideal S128x512 .f32)
    (v8 : FVec Ideal S1x512 .f32) (v12 : FVec Ideal S512x128 .f32) (v14 : FVec Ideal S1x128 .f32) : FVec Ideal S8x128 .f32 :=
  fun y => steps v11 v6 v8 v12 v14 (fun a => xin (ix2 (y 0) a)) (ucR v3 (y 0)) 8 (y 1)

/-- A state tile seen as one slab of a stack reads the tile. -/
theorem slab_apply (T : FVec Ideal S8x128 .f32) (r : Fin 8) (k : Fin 128) :
    shapeCast S1x8x128 T shapeCasts_S8x128_S1x8x128 (ix3 (0 : Fin 1) r k) = T (ix2 r k) :=
  shapeCast_apply T _ (ix3 (0 : Fin 1) r k) (ix2 r k) (by
    rw [Shape.rowMajor_val_three, Shape.rowMajor_val_two]
    show r.val * 128 + k.val = (0 * 8 + r.val) * 128 + k.val
    omega)

/-- The stack of eight tiles, at `(j, r, k)`, is tile `j` at `(r, k)`. -/
theorem stack_apply (T : Fin 8 → FVec Ideal S8x128 .f32) (j r : Fin 8) (k : Fin 128) :
    k0_pay1 (F := Ideal) (shapeCast S1x8x128 (T 0) shapeCasts_S8x128_S1x8x128) (shapeCast S1x8x128 (T 1) shapeCasts_S8x128_S1x8x128)
        (shapeCast S1x8x128 (T 2) shapeCasts_S8x128_S1x8x128) (shapeCast S1x8x128 (T 3) shapeCasts_S8x128_S1x8x128)
        (shapeCast S1x8x128 (T 4) shapeCasts_S8x128_S1x8x128) (shapeCast S1x8x128 (T 5) shapeCasts_S8x128_S1x8x128)
        (shapeCast S1x8x128 (T 6) shapeCasts_S8x128_S1x8x128) (shapeCast S1x8x128 (T 7) shapeCasts_S8x128_S1x8x128) (ix3 j r k)
      = T j (ix2 r k) := by
  unfold k0_pay1
  refine (concatenate_ofFn_unit_apply (t := S8x8x128) (s₁ := S1x8x128) (0 : Fin 3)
    (fun n : Fin 8 => shapeCast S1x8x128 (T n) shapeCasts_S8x128_S1x8x128) _ rfl rfl (ix3 j r k) j rfl (ix3 (0 : Fin 1) r k)
    (fun b hb => ?_)).trans (slab_apply (T j) r k)
  match b with
  | ⟨0, _⟩ => exact absurd rfl hb
  | ⟨1, _⟩ => rfl
  | ⟨2, _⟩ => rfl

end Cert.ReferenceIdeal.Chunk

end
-- ==== Proof.RCase.lean ====
/-
  What each of the reference's two control cases leaves, read as values.

  At the first time chunk of a batch tile the body first copies the tile of initial states into the carried state and
  reads it back; at every other chunk it starts from the carried state the chunk before left. Either way the output
  block ends holding the stack of the chunk's eight states, and the carried state the last of them.
-/
import proofs.«121607_g2000605949469319_pallasbulk_662_2_alg».proof.Proof.Gen.ReferenceIdeal.Frame
import proofs.«121607_g2000605949469319_pallasbulk_662_2_alg».proof.Proof.RChunk
import Idealize.ShloMosaic.Lib.Tactic
noncomputable section
namespace Cert.ReferenceIdeal.Case
open Cert.ReferenceIdeal Cert.ReferenceIdeal.Gen Cert.ReferenceIdeal.Step Cert.ReferenceIdeal.Chunk Idealize.ShloMosaic Idealize.ShloMosaic.ValueIdx Idealize.ShloMosaic.TcCoe Idealize.SL.Sem Cert.Rollout

theorem hz2 : (![0, 0] : Fin 2 → Nat) = fun _ => 0 := funext fun a => by fin_cases a <;> rfl
theorem hz3 : (![0, 0, 0] : Fin 3 → Nat) = fun _ => 0 := funext fun a => by fin_cases a <;> rfl

/-- The reset store's payload is the tile of initial states itself. -/
theorem pay3_eq (x0 : FVec Ideal S8x128 .f32) : k0_pay3 (F := Ideal) x0 = x0 := by
  unfold k0_pay3
  simp only [shapeCast_self]

/-- A later chunk: the output block is the eight states from the carried tile `xs0`. -/
theorem out_B (c : Dev nD) (i : grid0.Coords) (arg2 : Memref sig .tc .vmem S8x128 .f32) (harg2 : arg2.IsWhole) (arg3 : Memref sig .tc .vmem S8x8x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S8x8x128 .f32) (harg9 : arg9.IsWhole) (arg10 : Memref sig .tc .vmem S8x128 .f32) (harg10 : arg10.IsWhole) (hc0 : ¬cond0_0 i) (x0 : FVec Ideal S8x128 .f32) (x1 : FVec Ideal S8x8x128 .f32) (x2 : FVec Ideal S128x512 .f32) (x3 : FVec Ideal S128x512 .f32) (x4 : FVec Ideal S1x512 .f32) (x5 : FVec Ideal S512x128 .f32) (x6 : FVec Ideal S1x128 .f32) (xs0 : FVec Ideal S8x128 .f32) :
    out0_B_7 (F := Ideal) c i arg2 harg2 arg3 harg3 arg4 harg4 arg5 harg5 arg6 harg6 arg7 harg7 arg8 harg8 arg9 harg9 arg10 harg10 hc0 x0 x1 x2 x3 x4 x5 x6 xs0 = blockG xs0 x1 x3 x2 x4 x5 x6 := by
  unfold out0_B_7
  rw [View.read_writes_eq_canon _ _ _ (cover0_B_7 (F := Ideal) c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg10.read_unread, View.ld_unit_zero (S := S8x128) hz2, View.ld_unit_zero (S := S8x8x128) hz3, View.ld_unit_zero (S := S128x512) hz2, View.ld_unit_zero (S := S1x512) hz2, View.ld_unit_zero (S := S512x128) hz2, View.ld_unit_zero (S := S1x128) hz2]
  funext y
  obtain ⟨j, r, k, rfl⟩ : ∃ (j r : Fin 8) (k : Fin 128), y = ix3 j r k := ⟨y 0, y 1, y 2, eq_ix3 y⟩
  refine (stack_apply (fun n : Fin 8 => ![S1 x1 x3 x2 x4 x5 x6 xs0, S2 x1 x3 x2 x4 x5 x6 xs0, S3 x1 x3 x2 x4 x5 x6 xs0, S4 x1 x3 x2 x4 x5 x6 xs0, S5 x1 x3 x2 x4 x5 x6 xs0, S6 x1 x3 x2 x4 x5 x6 xs0, S7 x1 x3 x2 x4 x5 x6 xs0, S8 x1 x3 x2 x4 x5 x6 xs0] n) j r k).trans ?_
  unfold blockG
  show _ = steps x2 x3 x4 x5 x6 (fun a => xs0 (ix2 r a)) (ucR x1 r) (j.val + 1) k
  match j with
  | ⟨0, _⟩ => exact S1_apply x1 x3 x2 x4 x5 x6 xs0 r k
  | ⟨1, _⟩ => exact S2_apply x1 x3 x2 x4 x5 x6 xs0 r k
  | ⟨2, _⟩ => exact S3_apply x1 x3 x2 x4 x5 x6 xs0 r k
  | ⟨3, _⟩ => exact S4_apply x1 x3 x2 x4 x5 x6 xs0 r k
  | ⟨4, _⟩ => exact S5_apply x1 x3 x2 x4 x5 x6 xs0 r k
  | ⟨5, _⟩ => exact S6_apply x1 x3 x2 x4 x5 x6 xs0 r k
  | ⟨6, _⟩ => exact S7_apply x1 x3 x2 x4 x5 x6 xs0 r k
  | ⟨7, _⟩ => exact S8_apply x1 x3 x2 x4 x5 x6 xs0 r k

/-- A later chunk: the carried tile ends at the eighth state. -/
theorem tile_B (c : Dev nD) (i : grid0.Coords) (arg2 : Memref sig .tc .vmem S8x128 .f32) (harg2 : arg2.IsWhole) (arg3 : Memref sig .tc .vmem S8x8x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S8x8x128 .f32) (harg9 : arg9.IsWhole) (arg10 : Memref sig .tc .vmem S8x128 .f32) (harg10 : arg10.IsWhole) (hc0 : ¬cond0_0 i) (x0 : FVec Ideal S8x128 .f32) (x1 : FVec Ideal S8x8x128 .f32) (x2 : FVec Ideal S128x512 .f32) (x3 : FVec Ideal S128x512 .f32) (x4 : FVec Ideal S1x512 .f32) (x5 : FVec Ideal S512x128 .f32) (x6 : FVec Ideal S1x128 .f32) (xs0 : FVec Ideal S8x128 .f32) :
    sout0_B_0 (F := Ideal) c i arg2 harg2 arg3 harg3 arg4 harg4 arg5 harg5 arg6 harg6 arg7 harg7 arg8 harg8 arg9 harg9 arg10 harg10 hc0 x0 x1 x2 x3 x4 x5 x6 xs0 = tileG xs0 x1 x3 x2 x4 x5 x6 := by
  unfold sout0_B_0
  rw [View.read_writes_eq_canon _ _ _ (scover0_B_0 (F := Ideal) c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, View.ld_unit_zero (S := S8x128) hz2, View.ld_unit_zero (S := S8x8x128) hz3, View.ld_unit_zero (S := S128x512) hz2, View.ld_unit_zero (S := S1x512) hz2, View.ld_unit_zero (S := S512x128) hz2, View.ld_unit_zero (S := S1x128) hz2]
  funext y
  obtain ⟨r, k, rfl⟩ : ∃ (r : Fin 8) (k : Fin 128), y = ix2 r k := ⟨y 0, y 1, eq_ix2 y⟩
  show shapeCast S8x128 (S8 x1 x3 x2 x4 x5 x6 xs0) shapeCasts_S8x128_S8x128 (ix2 r k) = _
  rw [shapeCast_self]
  exact S8_apply x1 x3 x2 x4 x5 x6 xs0 r k

/-- The first chunk: the output block is the eight states from the tile of initial states `x0`. -/
theorem out_A (c : Dev nD) (i : grid0.Coords) (arg2 : Memref sig .tc .vmem S8x128 .f32) (harg2 : arg2.IsWhole) (arg3 : Memref sig .tc .vmem S8x8x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S8x8x128 .f32) (harg9 : arg9.IsWhole) (arg10 : Memref sig .tc .vmem S8x128 .f32) (harg10 : arg10.IsWhole) (hc0 : cond0_0 i) (x0 : FVec Ideal S8x128 .f32) (x1 : FVec Ideal S8x8x128 .f32) (x2 : FVec Ideal S128x512 .f32) (x3 : FVec Ideal S128x512 .f32) (x4 : FVec Ideal S1x512 .f32) (x5 : FVec Ideal S512x128 .f32) (x6 : FVec Ideal S1x128 .f32) :
    out0_A_7 (F := Ideal) c i arg2 harg2 arg3 harg3 arg4 harg4 arg5 harg5 arg6 harg6 arg7 harg7 arg8 harg8 arg9 harg9 arg10 harg10 hc0 x0 x1 x2 x3 x4 x5 x6 = blockG x0 x1 x3 x2 x4 x5 x6 := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz3]
  rw [View.readCov_unit_zero (S := S8x128) _ hz2]
  simp only [View.readAt_eq_ld, harg2.read_unread, harg3.read_unread, harg4.read_unread, harg5.read_unread, harg6.read_unread, harg7.read_unread, harg8.read_unread, harg10.read_unread, View.ld_unit_zero (S := S8x128) hz2, View.ld_unit_zero (S := S8x8x128) hz3, View.ld_unit_zero (S := S128x512) hz2, View.ld_unit_zero (S := S1x512) hz2, View.ld_unit_zero (S := S512x128) hz2, View.ld_unit_zero (S := S1x128) hz2, pay3_eq]
  funext y
  obtain ⟨j, r, k, rfl⟩ : ∃ (j r : Fin 8) (k : Fin 128), y = ix3 j r k := ⟨y 0, y 1, y 2, eq_ix3 y⟩
  refine (stack_apply (fun n : Fin 8 => ![S1 x1 x3 x2 x4 x5 x6 x0, S2 x1 x3 x2 x4 x5 x6 x0, S3 x1 x3 x2 x4 x5 x6 x0, S4 x1 x3 x2 x4 x5 x6 x0, S5 x1 x3 x2 x4 x5 x6 x0, S6 x1 x3 x2 x4 x5 x6 x0, S7 x1 x3 x2 x4 x5 x6 x0, S8 x1 x3 x2 x4 x5 x6 x0] n) j r k).trans ?_
  unfold blockG
  show _ = steps x2 x3 x4 x5 x6 (fun a => x0 (ix2 r a)) (ucR x1 r) (j.val + 1) k
  match j with
  | ⟨0, _⟩ => exact S1_apply x1 x3 x2 x4 x5 x6 x0 r k
  | ⟨1, _⟩ => exact S2_apply x1 x3 x2 x4 x5 x6 x0 r k
  | ⟨2, _⟩ => exact S3_apply x1 x3 x2 x4 x5 x6 x0 r k
  | ⟨3, _⟩ => exact S4_apply x1 x3 x2 x4 x5 x6 x0 r k
  | ⟨4, _⟩ => exact S5_apply x1 x3 x2 x4 x5 x6 x0 r k
  | ⟨5, _⟩ => exact S6_apply x1 x3 x2 x4 x5 x6 x0 r k
  | ⟨6, _⟩ => exact S7_apply x1 x3 x2 x4 x5 x6 x0 r k
  | ⟨7, _⟩ => exact S8_apply x1 x3 x2 x4 x5 x6 x0 r k

/-- The first chunk: the carried tile ends at the eighth state. -/
theorem tile_A (c : Dev nD) (i : grid0.Coords) (arg2 : Memref sig .tc .vmem S8x128 .f32) (harg2 : arg2.IsWhole) (arg3 : Memref sig .tc .vmem S8x8x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S8x8x128 .f32) (harg9 : arg9.IsWhole) (arg10 : Memref sig .tc .vmem S8x128 .f32) (harg10 : arg10.IsWhole) (hc0 : cond0_0 i) (x0 : FVec Ideal S8x128 .f32) (x1 : FVec Ideal S8x8x128 .f32) (x2 : FVec Ideal S128x512 .f32) (x3 : FVec Ideal S128x512 .f32) (x4 : FVec Ideal S1x512 .f32) (x5 : FVec Ideal S512x128 .f32) (x6 : FVec Ideal S1x128 .f32) :
    sout0_A_0 (F := Ideal) c i arg2 harg2 arg3 harg3 arg4 harg4 arg5 harg5 arg6 harg6 arg7 harg7 arg8 harg8 arg9 harg9 arg10 harg10 hc0 x0 x1 x2 x3 x4 x5 x6 = tileG x0 x1 x3 x2 x4 x5 x6 := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S8x128) hz2]
  rw [View.readCov_unit_zero (S := S8x128) _ hz2]
  simp only [View.readAt_eq_ld, harg2.read_unread, harg3.read_unread, harg4.read_unread, harg5.read_unread, harg6.read_unread, harg7.read_unread, harg8.read_unread, harg10.read_unread, View.ld_unit_zero (S := S8x128) hz2, View.ld_unit_zero (S := S8x8x128) hz3, View.ld_unit_zero (S := S128x512) hz2, View.ld_unit_zero (S := S1x512) hz2, View.ld_unit_zero (S := S512x128) hz2, View.ld_unit_zero (S := S1x128) hz2, pay3_eq]
  funext y
  obtain ⟨r, k, rfl⟩ : ∃ (r : Fin 8) (k : Fin 128), y = ix2 r k := ⟨y 0, y 1, eq_ix2 y⟩
  show shapeCast S8x128 (S8 x1 x3 x2 x4 x5 x6 x0) shapeCasts_S8x128_S8x128 (ix2 r k) = _
  rw [shapeCast_self]
  exact S8_apply x1 x3 x2 x4 x5 x6 x0 r k

end Cert.ReferenceIdeal.Case
end
-- ==== Proof.RBlocks.lean ====
/-
  The reference's windows, read at an index.

  The grid runs the 32 batch tiles one after the other, each through its 64 time chunks: point `t` is tile `t / 64`,
  chunk `t % 64`. Its window of initial states is rows `8 (t / 64) …` of the padded initial states, its window of
  controls is times `8 (t % 64) …` of those rows of the padded controls, and the five parameter windows are the whole
  arrays. The block reads are stated for any array, so that nothing about how the padded arrays were made enters.
-/
import proofs.«121607_g2000605949469319_pallasbulk_662_2_alg».proof.Proof.Gen.ReferenceIdeal.Value
import proofs.«121607_g2000605949469319_pallasbulk_662_2_alg».proof.Proof.RCase

noncomputable section

namespace Cert.ReferenceIdeal.Blocks

open Cert.ReferenceIdeal Cert.ReferenceIdeal.Gen
open Idealize.ShloMosaic Idealize.ShloMosaic.ValueIdx Idealize.ShloMosaic.TcCoe Idealize.SL.Sem Cert.Rollout

variable (m : (ℓ : Loc nD τ sig) → Buf (Elt Ideal) ℓ)

theorem lt_N (t : Fin cfg0.N) : t.val < 2048 := lt_of_lt_of_eq t.isLt (show cfg0.N = 2048 from N_0)

/-- The batch row that row `r` of point `t`'s tile is, and the time that step `j` of its chunk is. -/
def rowOf (t : Fin cfg0.N) (r : Fin 8) : Fin 256 := ⟨8 * (t.val / 64) + r.val, by have := lt_N t; have := r.isLt; omega⟩
def timeOf (t : Fin cfg0.N) (j : Fin 8) : Fin 512 := ⟨8 * (t.val % 64) + j.val, by have := lt_N t; have := j.isLt; omega⟩

/-- The padded initial states and the padded controls, as the region finds them. -/
def arrX0 (c : Dev nD) : Mat 256 128 := V m c main_v5
def arrU (c : Dev nD) : Ten 512 256 128 := V m c main_v7

/-! ## The index maps, decided over the grid -/

theorem idx0 : ∀ t : Fin cfg0.N, win0_0.index t (0 : Fin 2) = t.val / 64 ∧ win0_0.index t (1 : Fin 2) = 0 :=
  (by decide +kernel : ∀ t : Fin grid0.N, _)
theorem idx1 : ∀ t : Fin cfg0.N, win0_1.index t (0 : Fin 3) = t.val % 64 ∧ win0_1.index t (1 : Fin 3) = t.val / 64
    ∧ win0_1.index t (2 : Fin 3) = 0 :=
  (by decide +kernel : ∀ t : Fin grid0.N, _)
theorem idx7 : ∀ t : Fin cfg0.N, win0_7.index t (0 : Fin 3) = t.val % 64 ∧ win0_7.index t (1 : Fin 3) = t.val / 64
    ∧ win0_7.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-! ## A block of any array, read at an index -/

theorem read0 (t : Fin cfg0.N) (X : (⟨S256x128, .f32⟩ : BufTy).Contents (Elt Ideal)) (r : Fin 8) (k : Fin 128) :
    ((cfg0.win 0).blk t).view.read (Elt Ideal) X (ix2 r k) = X (ix2 (rowOf t r) k) := by
  obtain ⟨e0, e1⟩ := idx0 t
  rw [View.read_apply]
  refine congrArg X (funext fun a => Fin.ext ?_)
  match a with
  | ⟨0, _⟩ => show win0_0.index t (0 : Fin 2) * 8 + 1 * r.val = 8 * (t.val / 64) + r.val; rw [e0]; omega
  | ⟨1, _⟩ => show win0_0.index t (1 : Fin 2) * 128 + 1 * k.val = k.val; rw [e1]; omega

theorem read1 (t : Fin cfg0.N) (X : (⟨S512x256x128, .f32⟩ : BufTy).Contents (Elt Ideal)) (j : Fin 8) (r : Fin 8) (a : Fin 128) :
    ((cfg0.win 1).blk t).view.read (Elt Ideal) X (ix3 j r a) = X (ix3 (timeOf t j) (rowOf t r) a) := by
  obtain ⟨e0, e1, e2⟩ := idx1 t
  rw [View.read_apply]
  refine congrArg X (funext fun b => Fin.ext ?_)
  match b with
  | ⟨0, _⟩ => show win0_1.index t (0 : Fin 3) * 8 + 1 * j.val = 8 * (t.val % 64) + j.val; rw [e0]; omega
  | ⟨1, _⟩ => show win0_1.index t (1 : Fin 3) * 8 + 1 * r.val = 8 * (t.val / 64) + r.val; rw [e1]; omega
  | ⟨2, _⟩ => show win0_1.index t (2 : Fin 3) * 128 + 1 * a.val = a.val; rw [e2]; omega

/-- The output window's block of any array: the same rows and times. -/
theorem read7 (t : Fin cfg0.N) (X : (⟨S512x256x128, .f32⟩ : BufTy).Contents (Elt Ideal)) (j : Fin 8) (r : Fin 8) (a : Fin 128) :
    ((cfg0.win 7).blk t).view.read (Elt Ideal) X (ix3 j r a) = X (ix3 (timeOf t j) (rowOf t r) a) := by
  obtain ⟨e0, e1, e2⟩ := idx7 t
  rw [View.read_apply]
  refine congrArg X (funext fun b => Fin.ext ?_)
  match b with
  | ⟨0, _⟩ => show win0_7.index t (0 : Fin 3) * 8 + 1 * j.val = 8 * (t.val % 64) + j.val; rw [e0]; omega
  | ⟨1, _⟩ => show win0_7.index t (1 : Fin 3) * 8 + 1 * r.val = 8 * (t.val / 64) + r.val; rw [e1]; omega
  | ⟨2, _⟩ => show win0_7.index t (2 : Fin 3) * 128 + 1 * a.val = a.val; rw [e2]; omega

/-! ## The windows' blocks -/

theorem iblk0_unfold (c : Dev nD) (t : Fin cfg0.N) :
    (iblk m c 0 t : FVec Ideal S8x128 .f32) = ((cfg0.win 0).blk t).view.read (Elt Ideal) (arrX0 m c) := rfl
theorem iblk1_unfold (c : Dev nD) (t : Fin cfg0.N) :
    (iblk m c 1 t : FVec Ideal S8x8x128 .f32) = ((cfg0.win 1).blk t).view.read (Elt Ideal) (arrU m c) := rfl

theorem iblk0_apply (c : Dev nD) (t : Fin cfg0.N) (r : Fin 8) (k : Fin 128) :
    (iblk m c 0 t : FVec Ideal S8x128 .f32) (ix2 r k) = arrX0 m c (ix2 (rowOf t r) k) := by
  rw [iblk0_unfold]
  exact read0 t (arrX0 m c) r k

theorem iblk1_apply (c : Dev nD) (t : Fin cfg0.N) (j : Fin 8) (r : Fin 8) (a : Fin 128) :
    (iblk m c 1 t : FVec Ideal S8x8x128 .f32) (ix3 j r a) = arrU m c (ix3 (timeOf t j) (rowOf t r) a) := by
  rw [iblk1_unfold]
  exact read1 t (arrU m c) j r a

theorem iblk2_eq (c : Dev nD) (t : Fin cfg0.N) : (iblk m c 2 t : FVec Ideal S128x512 .f32) = V m c main_arg2 := by
  obtain ⟨e0, e1⟩ := idx2 t
  funext y
  obtain ⟨p, q, rfl⟩ : ∃ (p : Fin 128) (q : Fin 512), y = ix2 p q := ⟨y 0, y 1, eq_ix2 y⟩
  show V m c main_arg2 (((cfg0.win 2).blk t).view.emb (ix2 p q)) = V m c main_arg2 (ix2 p q)
  refine congrArg (V m c main_arg2) (funext fun a => Fin.ext ?_)
  match a with
  | ⟨0, _⟩ => show win0_2.index t (0 : Fin 2) * 128 + 1 * p.val = p.val; rw [e0]; omega
  | ⟨1, _⟩ => show win0_2.index t (1 : Fin 2) * 512 + 1 * q.val = q.val; rw [e1]; omega

theorem iblk3_eq (c : Dev nD) (t : Fin cfg0.N) : (iblk m c 3 t : FVec Ideal S128x512 .f32) = V m c main_arg3 := by
  obtain ⟨e0, e1⟩ := idx3 t
  funext y
  obtain ⟨p, q, rfl⟩ : ∃ (p : Fin 128) (q : Fin 512), y = ix2 p q := ⟨y 0, y 1, eq_ix2 y⟩
  show V m c main_arg3 (((cfg0.win 3).blk t).view.emb (ix2 p q)) = V m c main_arg3 (ix2 p q)
  refine congrArg (V m c main_arg3) (funext fun a => Fin.ext ?_)
  match a with
  | ⟨0, _⟩ => show win0_3.index t (0 : Fin 2) * 128 + 1 * p.val = p.val; rw [e0]; omega
  | ⟨1, _⟩ => show win0_3.index t (1 : Fin 2) * 512 + 1 * q.val = q.val; rw [e1]; omega

theorem iblk4_eq (c : Dev nD) (t : Fin cfg0.N) : (iblk m c 4 t : FVec Ideal S1x512 .f32) = V m c main_arg4 := by
  obtain ⟨e0, e1⟩ := idx4 t
  funext y
  obtain ⟨p, q, rfl⟩ : ∃ (p : Fin 1) (q : Fin 512), y = ix2 p q := ⟨y 0, y 1, eq_ix2 y⟩
  show V m c main_arg4 (((cfg0.win 4).blk t).view.emb (ix2 p q)) = V m c main_arg4 (ix2 p q)
  refine congrArg (V m c main_arg4) (funext fun a => Fin.ext ?_)
  match a with
  | ⟨0, _⟩ => show win0_4.index t (0 : Fin 2) * 1 + 1 * p.val = p.val; rw [e0]; omega
  | ⟨1, _⟩ => show win0_4.index t (1 : Fin 2) * 512 + 1 * q.val = q.val; rw [e1]; omega

theorem iblk5_eq (c : Dev nD) (t : Fin cfg0.N) : (iblk m c 5 t : FVec Ideal S512x128 .f32) = V m c main_v1 := by
  obtain ⟨e0, e1⟩ := idx5 t
  funext y
  obtain ⟨p, q, rfl⟩ : ∃ (p : Fin 512) (q : Fin 128), y = ix2 p q := ⟨y 0, y 1, eq_ix2 y⟩
  show V m c main_v1 (((cfg0.win 5).blk t).view.emb (ix2 p q)) = V m c main_v1 (ix2 p q)
  refine congrArg (V m c main_v1) (funext fun a => Fin.ext ?_)
  match a with
  | ⟨0, _⟩ => show win0_5.index t (0 : Fin 2) * 512 + 1 * p.val = p.val; rw [e0]; omega
  | ⟨1, _⟩ => show win0_5.index t (1 : Fin 2) * 128 + 1 * q.val = q.val; rw [e1]; omega

theorem iblk6_eq (c : Dev nD) (t : Fin cfg0.N) : (iblk m c 6 t : FVec Ideal S1x128 .f32) = V m c main_v3 := by
  obtain ⟨e0, e1⟩ := idx6 t
  funext y
  obtain ⟨p, q, rfl⟩ : ∃ (p : Fin 1) (q : Fin 128), y = ix2 p q := ⟨y 0, y 1, eq_ix2 y⟩
  show V m c main_v3 (((cfg0.win 6).blk t).view.emb (ix2 p q)) = V m c main_v3 (ix2 p q)
  refine congrArg (V m c main_v3) (funext fun a => Fin.ext ?_)
  match a with
  | ⟨0, _⟩ => show win0_6.index t (0 : Fin 2) * 1 + 1 * p.val = p.val; rw [e0]; omega
  | ⟨1, _⟩ => show win0_6.index t (1 : Fin 2) * 128 + 1 * q.val = q.val; rw [e1]; omega

end Cert.ReferenceIdeal.Blocks

end
-- ==== Proof.RInv.lean ====
/-
  What the reference's buffers hold after every grid point.

  Let `A` be arrays the windows' blocks are read from: the window of initial states at point `t` is rows
  `8 (t / 64) …` of `A.x0`, the window of controls is times `8 (t % 64) …` of those rows of `A.u`, and the five
  parameter windows are `A`'s parameters. By induction on the point, after point `t` the carried tile holds, at row `r`,
  batch row `8 (t / 64) + r`'s state after `8 (t % 64) + 8` steps, and the output block holds at `(j, r, ·)` that
  batch row's state after `8 (t % 64) + j + 1` steps: a chunk's eight steps continue the steps of the chunks before it,
  and the first chunk of a tile starts from the initial states.
-/
import proofs.«121607_g2000605949469319_pallasbulk_662_2_alg».proof.Proof.RBlocks

noncomputable section

namespace Cert.ReferenceIdeal.Inv

open Cert.ReferenceIdeal Cert.ReferenceIdeal.Gen Cert.ReferenceIdeal.Step Cert.ReferenceIdeal.Chunk Cert.ReferenceIdeal.Case Cert.ReferenceIdeal.Blocks
open Idealize.ShloMosaic Idealize.ShloMosaic.ValueIdx Idealize.ShloMosaic.TcCoe Idealize.SL.Sem Cert.Rollout

/-! ## One point continues the steps before it -/

/-- The controls of row `r` of point `t`'s tile, step by step, are batch row `rowOf t r`'s controls from time
    `8 (t % 64)` on. -/
theorem ucR_eq (A : Args) (t : Fin cfg0.N) (ublk : FVec Ideal S8x8x128 .f32)
    (h1 : ∀ (j : Fin 8) (r : Fin 8) (a : Fin 128), ublk (ix3 j r a) = A.u (ix3 (timeOf t j) (rowOf t r) a))
    (r : Fin 8) (i : ℕ) (hi : i < 8) :
    ucR ublk r i = ctrl A.u (rowOf t r) (8 * (t.val % 64) + i) := by
  have hlt : 8 * (t.val % 64) + i < 512 := by have := lt_N t; omega
  funext a
  unfold ucR ctrl
  rw [dif_pos hi, dif_pos hlt]
  exact h1 ⟨i, hi⟩ r a

/-- From a tile that holds the states after `8 (t % 64)` steps, `n ≤ 8` steps of the point are the states after
    `8 (t % 64) + n` steps. -/
theorem row_eq (A : Args) (t : Fin cfg0.N) (ublk : FVec Ideal S8x8x128 .f32)
    (h1 : ∀ (j : Fin 8) (r : Fin 8) (a : Fin 128), ublk (ix3 j r a) = A.u (ix3 (timeOf t j) (rowOf t r) a))
    (xin : FVec Ideal S8x128 .f32)
    (hxin : ∀ (r : Fin 8) (k : Fin 128), xin (ix2 r k) = state A (rowOf t r) (8 * (t.val % 64)) k)
    (r : Fin 8) (n : ℕ) (hn : n ≤ 8) :
    steps A.w1x A.w1u A.b1 A.w2 A.b2 (fun a => xin (ix2 r a)) (ucR ublk r) n
      = state A (rowOf t r) (8 * (t.val % 64) + n) := by
  have e : (fun a => xin (ix2 r a)) = state A (rowOf t r) (8 * (t.val % 64)) := funext fun a => hxin r a
  rw [e]
  unfold state
  rw [steps_add]
  exact steps_congr _ _ _ _ _ _ _ _ n (fun i hi => ucR_eq A t ublk h1 r i (by omega))

/-- So the block and the tile the point leaves are the states its rows reach. -/
theorem point_eq (A : Args) (t : Fin cfg0.N) (ublk : FVec Ideal S8x8x128 .f32)
    (h1 : ∀ (j : Fin 8) (r : Fin 8) (a : Fin 128), ublk (ix3 j r a) = A.u (ix3 (timeOf t j) (rowOf t r) a))
    (xin : FVec Ideal S8x128 .f32)
    (hxin : ∀ (r : Fin 8) (k : Fin 128), xin (ix2 r k) = state A (rowOf t r) (8 * (t.val % 64)) k) :
    blockG xin ublk A.w1u A.w1x A.b1 A.w2 A.b2
        = (fun y => state A (rowOf t (y 1)) (8 * (t.val % 64) + ((y 0).val + 1)) (y 2))
      ∧ tileG xin ublk A.w1u A.w1x A.b1 A.w2 A.b2
        = (fun y => state A (rowOf t (y 0)) (8 * (t.val % 64) + 8) (y 1)) := by
  refine ⟨funext fun y => ?_, funext fun y => ?_⟩
  · unfold blockG
    rw [row_eq A t ublk h1 xin hxin (y 1) ((y 0).val + 1) (by have : (y 0).val < 8 := (y 0).isLt; omega)]
  · unfold tileG
    rw [row_eq A t ublk h1 xin hxin (y 0) 8 (le_refl 8)]

/-! ## The induction over the points -/

variable (m : (ℓ : Loc nD τ sig) → Buf (Elt Ideal) ℓ)

set_option maxHeartbeats 4000000 in
/-- At the first chunk of a tile the point runs from the window of initial states. -/
theorem pointA (c : Dev nD) (A : Args)
    (h2 : ∀ t : Fin cfg0.N, (iblk m c 2 t : FVec Ideal S128x512 .f32) = A.w1x)
    (h3 : ∀ t : Fin cfg0.N, (iblk m c 3 t : FVec Ideal S128x512 .f32) = A.w1u)
    (h4 : ∀ t : Fin cfg0.N, (iblk m c 4 t : FVec Ideal S1x512 .f32) = A.b1)
    (h5 : ∀ t : Fin cfg0.N, (iblk m c 5 t : FVec Ideal S512x128 .f32) = A.w2)
    (h6 : ∀ t : Fin cfg0.N, (iblk m c 6 t : FVec Ideal S1x128 .f32) = A.b2)
    (t : Fin cfg0.N) (h0 : t.val % 64 = 0) :
    outsAt0 m c t.val t.isLt
      = (blockG (iblk m c 0 t) (iblk m c 1 t) A.w1u A.w1x A.b1 A.w2 A.b2,
         tileG (iblk m c 0 t) (iblk m c 1 t) A.w1u A.w1x A.b1 A.w2 A.b2) := by
  rw [outsAt0_A m c t h0, out_A, tile_A, h2 t, h3 t, h4 t, h5 t, h6 t]

set_option maxHeartbeats 4000000 in
/-- At a later chunk the point runs from the carried tile the point before left. -/
theorem pointB (c : Dev nD) (A : Args)
    (h2 : ∀ t : Fin cfg0.N, (iblk m c 2 t : FVec Ideal S128x512 .f32) = A.w1x)
    (h3 : ∀ t : Fin cfg0.N, (iblk m c 3 t : FVec Ideal S128x512 .f32) = A.w1u)
    (h4 : ∀ t : Fin cfg0.N, (iblk m c 4 t : FVec Ideal S1x512 .f32) = A.b1)
    (h5 : ∀ t : Fin cfg0.N, (iblk m c 5 t : FVec Ideal S512x128 .f32) = A.w2)
    (h6 : ∀ t : Fin cfg0.N, (iblk m c 6 t : FVec Ideal S1x128 .f32) = A.b2)
    (t : Fin cfg0.N) (h0 : ¬t.val % 64 = 0) :
    outsAt0 m c t.val t.isLt
      = (blockG ((outsAt0 m c (t.val - 1) (Nat.lt_of_le_of_lt (Nat.sub_le _ _) t.isLt)).2) (iblk m c 1 t) A.w1u A.w1x A.b1 A.w2 A.b2,
         tileG ((outsAt0 m c (t.val - 1) (Nat.lt_of_le_of_lt (Nat.sub_le _ _) t.isLt)).2) (iblk m c 1 t) A.w1u A.w1x A.b1 A.w2 A.b2) := by
  rw [outsAt0_B m c t h0, out_B, tile_B, h2 t, h3 t, h4 t, h5 t, h6 t]

theorem outsAt_eq (c : Dev nD) (A : Args)
    (hx0 : ∀ (t : Fin cfg0.N) (r : Fin 8) (k : Fin 128), (iblk m c 0 t : FVec Ideal S8x128 .f32) (ix2 r k) = A.x0 (ix2 (rowOf t r) k))
    (hu : ∀ (t : Fin cfg0.N) (j : Fin 8) (r : Fin 8) (a : Fin 128), (iblk m c 1 t : FVec Ideal S8x8x128 .f32) (ix3 j r a) = A.u (ix3 (timeOf t j) (rowOf t r) a))
    (h2 : ∀ t : Fin cfg0.N, (iblk m c 2 t : FVec Ideal S128x512 .f32) = A.w1x)
    (h3 : ∀ t : Fin cfg0.N, (iblk m c 3 t : FVec Ideal S128x512 .f32) = A.w1u)
    (h4 : ∀ t : Fin cfg0.N, (iblk m c 4 t : FVec Ideal S1x512 .f32) = A.b1)
    (h5 : ∀ t : Fin cfg0.N, (iblk m c 5 t : FVec Ideal S512x128 .f32) = A.w2)
    (h6 : ∀ t : Fin cfg0.N, (iblk m c 6 t : FVec Ideal S1x128 .f32) = A.b2) :
    ∀ (n : ℕ) (hn : n < cfg0.N),
    (outsAt0 m c n hn).1 = (fun y => state A (rowOf ⟨n, hn⟩ (y 1)) (8 * (n % 64) + ((y 0).val + 1)) (y 2))
      ∧ (outsAt0 m c n hn).2 = (fun y => state A (rowOf ⟨n, hn⟩ (y 0)) (8 * (n % 64) + 8) (y 1)) := by
  intro n
  induction n using Nat.strong_induction_on with
  | _ n ih =>
    intro hn
    have hN := lt_N ⟨n, hn⟩
    by_cases h0 : n % 64 = 0
    · have hA := pointA m c A h2 h3 h4 h5 h6 ⟨n, hn⟩ h0
      have hp := point_eq A ⟨n, hn⟩ (iblk m c 1 ⟨n, hn⟩) (hu ⟨n, hn⟩) (iblk m c 0 ⟨n, hn⟩) (fun r k => by
        rw [hx0]
        show _ = state A (rowOf ⟨n, hn⟩ r) (8 * (n % 64)) k
        rw [h0]
        rfl)
      exact ⟨(congrArg Prod.fst hA).trans hp.1, (congrArg Prod.snd hA).trans hp.2⟩
    · have hB := pointB m c A h2 h3 h4 h5 h6 ⟨n, hn⟩ h0
      have hlt : n - 1 < cfg0.N := Nat.lt_of_le_of_lt (Nat.sub_le _ _) hn
      have hp := point_eq A ⟨n, hn⟩ (iblk m c 1 ⟨n, hn⟩) (hu ⟨n, hn⟩) ((outsAt0 m c (n - 1) hlt).2) (fun r k => by
        rw [(ih (n - 1) (by omega) hlt).2]
        show state A (rowOf ⟨n - 1, hlt⟩ r) (8 * ((n - 1) % 64) + 8) k = state A (rowOf ⟨n, hn⟩ r) (8 * (n % 64)) k
        have e1 : rowOf ⟨n - 1, hlt⟩ r = rowOf ⟨n, hn⟩ r := Fin.ext (by
          show 8 * ((n - 1) / 64) + r.val = 8 * (n / 64) + r.val
          omega)
        have e2 : 8 * ((n - 1) % 64) + 8 = 8 * (n % 64) := by omega
        rw [e1, e2])
      exact ⟨(congrArg Prod.fst hB).trans hp.1, (congrArg Prod.snd hB).trans hp.2⟩

/-- The same, the seven arrays given one by one. -/
theorem outsAt_eq_arrays (c : Dev nD) (X0 : Mat 256 128) (U : Ten 512 256 128) (W1x W1u : Mat 128 512) (B1 : Mat 1 512)
    (W2 : Mat 512 128) (B2 : Mat 1 128)
    (hx0 : ∀ (t : Fin cfg0.N) (r : Fin 8) (k : Fin 128), (iblk m c 0 t : FVec Ideal S8x128 .f32) (ix2 r k) = X0 (ix2 (rowOf t r) k))
    (hu : ∀ (t : Fin cfg0.N) (j : Fin 8) (r : Fin 8) (a : Fin 128), (iblk m c 1 t : FVec Ideal S8x8x128 .f32) (ix3 j r a) = U (ix3 (timeOf t j) (rowOf t r) a))
    (h2 : ∀ t : Fin cfg0.N, (iblk m c 2 t : FVec Ideal S128x512 .f32) = W1x)
    (h3 : ∀ t : Fin cfg0.N, (iblk m c 3 t : FVec Ideal S128x512 .f32) = W1u)
    (h4 : ∀ t : Fin cfg0.N, (iblk m c 4 t : FVec Ideal S1x512 .f32) = B1)
    (h5 : ∀ t : Fin cfg0.N, (iblk m c 5 t : FVec Ideal S512x128 .f32) = W2)
    (h6 : ∀ t : Fin cfg0.N, (iblk m c 6 t : FVec Ideal S1x128 .f32) = B2) :
    ∀ (n : ℕ) (hn : n < cfg0.N),
    (outsAt0 m c n hn).1 = (fun y => state ⟨X0, U, W1x, W1u, B1, W2, B2⟩ (rowOf ⟨n, hn⟩ (y 1)) (8 * (n % 64) + ((y 0).val + 1)) (y 2))
      ∧ (outsAt0 m c n hn).2 = (fun y => state ⟨X0, U, W1x, W1u, B1, W2, B2⟩ (rowOf ⟨n, hn⟩ (y 0)) (8 * (n % 64) + 8) (y 1)) :=
  outsAt_eq m c ⟨X0, U, W1x, W1u, B1, W2, B2⟩ hx0 hu h2 h3 h4 h5 h6

end Cert.ReferenceIdeal.Inv

end
-- ==== Proof.RFinal.lean ====
/-
  The reference's result array is the rollout of the arrays the region finds.

  What point `t` writes back is block `t` of the rollout (times `8 (t % 64) …`, batch rows `8 (t / 64) …`); the blocks
  cover the array, the point for `(n, p, ·)` being `64 (p / 8) + n / 8`; so after the run the result array is the
  rollout. -/
import proofs.«121607_g2000605949469319_pallasbulk_662_2_alg».proof.Proof.RInv

noncomputable section

namespace Cert.ReferenceIdeal.Final

open Cert.ReferenceIdeal Cert.ReferenceIdeal.Gen Cert.ReferenceIdeal.Blocks Cert.ReferenceIdeal.Inv
open Idealize.ShloMosaic Idealize.ShloMosaic.ValueIdx Idealize.ShloMosaic.TcCoe Idealize.SL.Sem Cert.Rollout
open Idealize.ShloMosaic.Pipeline (Dat)

variable (m : (ℓ : Loc nD τ sig) → Buf (Elt Ideal) ℓ) (ρ : Dev nD → PrngReg)

/-- The arrays the rollout is a function of, as the region finds them. -/
def args (c : Dev nD) : Args :=
  ⟨arrX0 m c, arrU m c, V m c main_arg2, V m c main_arg3, V m c main_arg4, V m c main_v1, V m c main_v3⟩

theorem outs_eq (c : Dev nD) (t : Fin cfg0.N) :
    (outsAt0 m c t.val t.isLt).1
      = fun y => state (args m c) (rowOf t (y 1)) (8 * (t.val % 64) + ((y 0).val + 1)) (y 2) :=
  (outsAt_eq_arrays m c (arrX0 m c) (arrU m c) (V m c main_arg2) (V m c main_arg3) (V m c main_arg4) (V m c main_v1)
    (V m c main_v3) (iblk0_apply m c) (iblk1_apply m c) (iblk2_eq m c) (iblk3_eq m c) (iblk4_eq m c)
    (iblk5_eq m c) (iblk6_eq m c) t.val t.isLt).1

/-- What point `t` writes back is block `t` of the rollout. -/
theorem flushed_eq (c : Dev nD) (t : Fin cfg0.N) :
    (dats m 0 c).flushed 7 t = ((cfg0.win 7).blk t).view.read (Elt Ideal) (G (args m c)) := by
  rw [Cert.ReferenceIdeal.Value.flushed7 m c t, outs_eq m c t]
  funext y
  obtain ⟨j, r, k, rfl⟩ : ∃ (j r : Fin 8) (k : Fin 128), y = ix3 j r k := ⟨y 0, y 1, y 2, eq_ix3 y⟩
  rw [read7 t (G (args m c)) j r k]
  have e : 8 * (t.val % 64) + (j.val + 1) = (timeOf t j).val + 1 := by
    show _ = 8 * (t.val % 64) + j.val + 1
    omega
  show state (args m c) (rowOf t r) (8 * (t.val % 64) + (j.val + 1)) k = state (args m c) (rowOf t r) ((timeOf t j).val + 1) k
  rw [e]

/-- An index of the result array is in point `t`'s block iff each coordinate is in the block's range on its axis. -/
theorem mem_blk (t : Fin cfg0.N) (i : S512x256x128.Idx) :
    i ∈ ((cfg0.win 7).blk t).view.set ↔ ∀ a : Fin 3, win0_7.index t a * S8x8x128.size a ≤ (i a).val
      ∧ (i a).val < win0_7.index t a * S8x8x128.size a + S8x8x128.size a := by
  show i ∈ ((View.whole main_v8).slice (win0_7.rect t)).set ↔ _
  rw [View.set_slice_whole, Rect.mem_set_unit]
  exact Iff.rfl

/-- The point whose block holds `(n, p, ·)`. -/
def pointOf (i : S512x256x128.Idx) : Fin cfg0.N :=
  ⟨64 * ((i 1).val / 8) + (i 0).val / 8, by
    have h0 : (i 0).val < 512 := (i 0).isLt
    have h1 : (i 1).val < 256 := (i 1).isLt
    rw [show cfg0.N = 2048 from N_0]; omega⟩

/-- Every index is in some point's block. -/
theorem cover (i : S512x256x128.Idx) :
    ∃ t : Fin cfg0.N, (cfg0.win 7).flush t = true ∧ i ∈ ((cfg0.win 7).blk t).view.set := by
  have h0 : (i 0).val < 512 := (i 0).isLt
  have h1 : (i 1).val < 256 := (i 1).isLt
  have h2 : (i 2).val < 128 := (i 2).isLt
  have hv : (pointOf i).val = 64 * ((i 1).val / 8) + (i 0).val / 8 := rfl
  obtain ⟨e0, e1, e2⟩ := idx7 (pointOf i)
  refine ⟨pointOf i, flush0_7 _, ?_⟩
  rw [mem_blk]
  intro a
  match a with
  | ⟨0, _⟩ =>
    show win0_7.index (pointOf i) (0 : Fin 3) * 8 ≤ (i 0).val ∧ (i 0).val < win0_7.index (pointOf i) (0 : Fin 3) * 8 + 8
    rw [e0, hv]; omega
  | ⟨1, _⟩ =>
    show win0_7.index (pointOf i) (1 : Fin 3) * 8 ≤ (i 1).val ∧ (i 1).val < win0_7.index (pointOf i) (1 : Fin 3) * 8 + 8
    rw [e1, hv]; omega
  | ⟨2, _⟩ =>
    show win0_7.index (pointOf i) (2 : Fin 3) * 128 ≤ (i 2).val ∧ (i 2).val < win0_7.index (pointOf i) (2 : Fin 3) * 128 + 128
    rw [e2]; omega

/-- So the result array ends at the rollout. -/
theorem final (c : Dev nD) : (dats m 0 c).arrAt 7 cfg0.N = G (args m c) :=
  (dats m 0 c).arrAt_eq_of_cover 7 (G (args m c)) (fun t _ => flushed_eq m c t) cover

/-- The run, read: the result array at the rollout, the arguments unchanged. -/
theorem run : θ_run defs (onTc (τ := τ) (main (F := Ideal))) ⟨m, fun _ => 0, ρ⟩ fun r => ∀ c : Dev nD,
      r.2.mem ((c : Thread nD τ).loc main_v8) = G (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.ReferenceIdeal.Value.run_blocks m ρ)

end Cert.ReferenceIdeal.Final

end
-- ==== Proof.RHost.lean ====
/-
  The arrays the reference's region finds are the host's: the initial states and the controls written over zeros of their
  own shapes, the three parameters passed through, and the last layer's two parameters multiplied by the step size.
-/
import proofs.«121607_g2000605949469319_pallasbulk_662_2_alg».proof.Proof.RFinal
import Idealize.ShloMosaic.Lib.StableHlo.Run

noncomputable section

namespace Cert.ReferenceIdeal.Final

open Cert.ReferenceIdeal Cert.ReferenceIdeal.Gen Cert.ReferenceIdeal.Blocks Cert.ReferenceIdeal.Inv
open Idealize.ShloMosaic Idealize.ShloMosaic.ValueIdx Idealize.ShloMosaic.TcCoe Idealize.SL.Sem Cert.Rollout

variable (m : (ℓ : Loc nD τ sig) → Buf (Elt Ideal) ℓ)

/-- The host's operations before the call, one result each. -/
def hostX0 (a0 : Mat 256 128) : Mat 256 128 :=
  Host.scatter scatter_S256x128_S0_S256x128_01_n_n_0 (fun _ b => b)
    (broadcastInDim S256x128 ![] bcast_S_S256x128 (constant (F := Ideal) S_ .f32 0x00000000#32))
    (emptyVec S0 hz_S0 : (⟨S0, .i32⟩ : BufTy).Contents (Elt Ideal)) a0
def hostU (a1 : Ten 512 256 128) : Ten 512 256 128 :=
  Host.scatter scatter_S512x256x128_S0_S512x256x128_012_n_n_0 (fun _ b => b)
    (broadcastInDim S512x256x128 ![] bcast_S_S512x256x128 (constant (F := Ideal) S_ .f32 0x00000000#32))
    (emptyVec S0 hz_S0 : (⟨S0, .i32⟩ : BufTy).Contents (Elt Ideal)) a1
def hostW2 (a5 : Mat 512 128) (a7 : S_.Idx → EReal) : Mat 512 128 :=
  mulf (F := Ideal) (φ := .f32) a5 (broadcastInDim S512x128 ![] bcast_S_S512x128 a7)
def hostB2 (a6 : Mat 1 128) (a7 : S_.Idx → EReal) : Mat 1 128 :=
  mulf (F := Ideal) (φ := .f32) a6 (broadcastInDim S1x128 ![] bcast_S_S1x128 a7)

/-- The rollout's arrays, of the argument arrays. -/
def hostArgs (a0 : Mat 256 128) (a1 : Ten 512 256 128) (a2 a3 : Mat 128 512) (a4 : Mat 1 512) (a5 : Mat 512 128)
    (a6 : Mat 1 128) (a7 : S_.Idx → EReal) : Args :=
  ⟨hostX0 a0, hostU a1, a2, a3, a4, hostW2 a5 a7, hostB2 a6 a7⟩

theorem arrX0_eq (c : Dev nD) : arrX0 m c = hostX0 (m ((c : Thread nD τ).loc main_arg0)) := by
  unfold arrX0 hostX0; dsimp only [Gen.V, Gen.hostOps0]; after_results
theorem arrU_eq (c : Dev nD) : arrU m c = hostU (m ((c : Thread nD τ).loc main_arg1)) := by
  unfold arrU hostU; dsimp only [Gen.V, Gen.hostOps0]; after_results
theorem w2_eq (c : Dev nD) : (V m c main_v1 : Mat 512 128) = hostW2 (m ((c : Thread nD τ).loc main_arg5)) (m ((c : Thread nD τ).loc main_arg7)) := by
  unfold hostW2; dsimp only [Gen.V, Gen.hostOps0]; after_results
theorem b2_eq (c : Dev nD) : (V m c main_v3 : Mat 1 128) = hostB2 (m ((c : Thread nD τ).loc main_arg6)) (m ((c : Thread nD τ).loc main_arg7)) := by
  unfold hostB2; dsimp only [Gen.V, Gen.hostOps0]; after_results

theorem args_eq (c : Dev nD) : args m c = hostArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e2 : (V m c main_arg2 : Mat 128 512) = (m ((c : Thread nD τ).loc main_arg2)) := V_main_arg2 m c
  have e3 : (V m c main_arg3 : Mat 128 512) = (m ((c : Thread nD τ).loc main_arg3)) := V_main_arg3 m c
  have e4 : (V m c main_arg4 : Mat 1 512) = (m ((c : Thread nD τ).loc main_arg4)) := V_main_arg4 m c
  unfold args hostArgs
  rw [arrX0_eq, arrU_eq, e2, e3, e4, w2_eq, b2_eq]

end Cert.ReferenceIdeal.Final

end
-- ==== Proof.lean ====
/-
  The kernel and the reference compute the same Euler rollout.

  Both programs make the same arrays on the host (the initial states and the controls written over zeros of their own
  shapes; the last layer's weights and bias multiplied by the step size) and hand them to one call that rolls the
  recurrence `x ← x + tanh (x · W1x + u · W1u + b1) · W2 + b2` out over 512 times, returning every state. The kernel cuts
  the 256 batch rows into two tiles of 128 and stores each chunk's eight states one after the other; the reference cuts
  them into 32 tiles of 8 and stores each chunk's eight states as one stack. At the ideal values a matrix product read at
  an entry is a finite sum over that entry's row and column, so a batch row never meets another: each program's result
  array holds, at `(n, p, ·)`, batch row `p`'s state after `n + 1` steps (`Cert.Rollout.G`), whatever the tiling. No
  algebraic law beyond that is used, and the inputs' finiteness is not needed.

  The frames are the generated ones; the ideal pass rewrote nothing, so the kernel's idealization is its own text.
-/
import proofs.«121607_g2000605949469319_pallasbulk_662_2_alg».proof.Defs
import proofs.«121607_g2000605949469319_pallasbulk_662_2_alg».proof.Proof.Gen.Kernel
import proofs.«121607_g2000605949469319_pallasbulk_662_2_alg».proof.Proof.Gen.Kernel.Skeleton
import proofs.«121607_g2000605949469319_pallasbulk_662_2_alg».proof.Proof.Gen.Kernel.Launch
import proofs.«121607_g2000605949469319_pallasbulk_662_2_alg».proof.Proof.Gen.Kernel.Points
import proofs.«121607_g2000605949469319_pallasbulk_662_2_alg».proof.Proof.Gen.Kernel.Frame
import proofs.«121607_g2000605949469319_pallasbulk_662_2_alg».proof.Proof.Gen.KernelIdeal
import proofs.«121607_g2000605949469319_pallasbulk_662_2_alg».proof.Proof.Gen.KernelIdeal.Skeleton
import proofs.«121607_g2000605949469319_pallasbulk_662_2_alg».proof.Proof.Gen.KernelIdeal.Launch
import proofs.«121607_g2000605949469319_pallasbulk_662_2_alg».proof.Proof.Gen.KernelIdeal.Points
import proofs.«121607_g2000605949469319_pallasbulk_662_2_alg».proof.Proof.Gen.KernelIdeal.Frame
import proofs.«121607_g2000605949469319_pallasbulk_662_2_alg».proof.Proof.Gen.ReferenceIdeal
import proofs.«121607_g2000605949469319_pallasbulk_662_2_alg».proof.Proof.Gen.ReferenceIdeal.Skeleton
import proofs.«121607_g2000605949469319_pallasbulk_662_2_alg».proof.Proof.Gen.ReferenceIdeal.Launch
import proofs.«121607_g2000605949469319_pallasbulk_662_2_alg».proof.Proof.Gen.ReferenceIdeal.Points
import proofs.«121607_g2000605949469319_pallasbulk_662_2_alg».proof.Proof.Gen.ReferenceIdeal.Frame
import proofs.«121607_g2000605949469319_pallasbulk_662_2_alg».proof.Proof.Gen.Pre_finite_inputs
import proofs.«121607_g2000605949469319_pallasbulk_662_2_alg».proof.Proof.Gen.KernelIdeal.Value
import proofs.«121607_g2000605949469319_pallasbulk_662_2_alg».proof.Proof.Gen.ReferenceIdeal.Value
import proofs.«121607_g2000605949469319_pallasbulk_662_2_alg».proof.Proof.Spec
import proofs.«121607_g2000605949469319_pallasbulk_662_2_alg».proof.Proof.KHost
import proofs.«121607_g2000605949469319_pallasbulk_662_2_alg».proof.Proof.RHost
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation. -/
theorem preserves : Cert.preserves_Kernel_KernelIdeal := trivial

/-- The two programs make the rollout's arrays from the argument arrays by the same host operations. -/
theorem hostArgs_eq : Cert.ReferenceIdeal.Final.hostArgs = Cert.KernelIdeal.Final.hostArgs := rfl

/-- Both result arrays end at the rollout of the same arrays. -/
theorem algebraic : Cert.algebraic_KernelIdeal_ReferenceIdeal := by
  intro m ρ m' ρ' _ hagree
  refine ⟨fun c => Cert.Rollout.G (Cert.KernelIdeal.Final.args m c), Cert.KernelIdeal.Final.run m ρ, ?_⟩
  refine (θ_run Cert.ReferenceIdeal.defs _ _).mono (fun _ h c => ⟨(h c).1.trans ?_, (h c).2⟩)
    (Cert.ReferenceIdeal.Final.run m' ρ')
  obtain ⟨h0, h1, h2, h3, h4, h5, h6, h7⟩ := hagree c
  show Cert.Rollout.G (Cert.ReferenceIdeal.Final.args m' c) = Cert.Rollout.G (Cert.KernelIdeal.Final.args m c)
  rw [Cert.ReferenceIdeal.Final.args_eq, Cert.KernelIdeal.Final.args_eq, h0, h1, h2, h3, h4, h5, h6, h7, hostArgs_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
